-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x2048 : Shape := ⟨3, ![8, 256, 2048]⟩
abbrev S256x256 : Shape := ⟨2, ![256, 256]⟩
abbrev S256 : Shape := ⟨1, ![256]⟩
abbrev S2048 : Shape := ⟨1, ![2048]⟩
abbrev S_ : Shape := ⟨0, ![]⟩

class Facts : Prop where
  bcast_S_S8x256x2048 : S_.BroadcastsInDim S8x256x2048 (![] : Fin 0 → Fin S8x256x2048.rank)
  reducesTo_S8x256x2048_S_d0_1_2 : S8x256x2048.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x256x2048 .f32) (main_arg1 : FVec F S256x256 .f32) (main_arg2 : FVec F S256 .f32) (main_arg3 : FVec F S2048 .f32) (main_arg4 : FVec F S2048 .f32) : IVec S_ 1 :=
  let main_v0 : FVec F S8x256x2048 .f32 := Host.absf main_arg0
  let main_cst : FVec F S_ .f32 := constant S_ .f32 0x7F800000#32
  let main_v1 : FVec F S8x256x2048 .f32 := broadcastInDim S8x256x2048 ![] bcast_S_S8x256x2048 main_cst
  let main_v2 : IVec S8x256x2048 1 := cmpf .olt main_v0 main_v1
  let main_c : IVec S_ 1 := constantI S_ 1 1#1
  let main_v3 : IVec S_ 1 := (fun x v => Host.reduce IntOp.andi x v reducesTo_S8x256x2048_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S8x256x2048 : Shape := ⟨3, ![8, 256, 2048]⟩
abbrev S256x256 : Shape := ⟨2, ![256, 256]⟩
abbrev S256 : Shape := ⟨1, ![256]⟩
abbrev S2048 : Shape := ⟨1, ![2048]⟩
abbrev S1x256x2048 : Shape := ⟨3, ![1, 256, 2048]⟩
abbrev S2048x2048 : Shape := ⟨2, ![2048, 2048]⟩
abbrev S256x2048 : Shape := ⟨2, ![256, 2048]⟩
abbrev S1x2048 : Shape := ⟨2, ![1, 2048]⟩
abbrev S1x256x256 : Shape := ⟨3, ![1, 256, 256]⟩
abbrev S1x256 : Shape := ⟨2, ![1, 256]⟩
abbrev S256x1 : Shape := ⟨2, ![256, 1]⟩
abbrev S2048x1 : Shape := ⟨2, ![2048, 1]⟩
abbrev S2048x256 : Shape := ⟨2, ![2048, 256]⟩

abbrev nBuf : Space → Nat
  | .hbm => 6
  | .vmem => 9
  | .smem => 0
  | _ => 0

abbrev bufTy : (tb : Table) → Fin (tcTables nBuf tb) → BufTy
  | .hbm, ⟨0, _⟩ => ⟨S8x256x2048, .f32⟩
  | .hbm, ⟨1, _⟩ => ⟨S256x256, .f32⟩
  | .hbm, ⟨2, _⟩ => ⟨S256, .f32⟩
  | .hbm, ⟨3, _⟩ => ⟨S2048, .f32⟩
  | .hbm, ⟨4, _⟩ => ⟨S2048, .f32⟩
  | .hbm, ⟨5, _⟩ => ⟨S8x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x256, .f32⟩
  | .local _ .vmem, ⟨3, _⟩ => ⟨S256, .f32⟩
  | .local _ .vmem, ⟨4, _⟩ => ⟨S2048, .f32⟩
  | .local _ .vmem, ⟨5, _⟩ => ⟨S2048, .f32⟩
  | .local _ .vmem, ⟨6, _⟩ => ⟨S1x256x2048, .f32⟩
  | .local _ .vmem, ⟨7, _⟩ => ⟨S1x256x2048, .f32⟩
  | .local _ .vmem, ⟨8, _⟩ => ⟨S2048x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v64 : BitVec 32 := Scalar.muli arg8 c256_i32
  v64
def k0_off1 (k0_t1 : Fin k0_t1_loop.trips) : Fin 3 → Nat :=
  let c0_25 : Index := 0#32
  let c0_26 : Index := 0#32
  let c0_i32 : BitVec 32 := 0#32
  let c1_i32 : BitVec 32 := 1#32
  let arg8 : BitVec 32 := Scf.iv c0_i32 c1_i32 k0_t1
  let c256_i32 : BitVec 32 := 256#32
  let v64 : BitVec 32 := Scalar.muli arg8 c256_i32
  let v65 : BitVec 32 := v64
  let v66 : Index := Scalar.indexCast v65
  ![0, 0, v66.toNat]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v64 : BitVec 32 := Scalar.muli arg8 c256_i32
  let v65 : BitVec 32 := v64
  let v85 : Index := Scalar.indexCast v65
  let c0_31 : Index := 0#32
  ![v85.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S2048 : S256x2048.Reduces [0] S2048
  shapeCasts_S2048_S1x2048 : S2048.ShapeCasts S1x2048
  h_S1x256x256 : 0 < S1x256x256.numel
  shapeCasts_S1x256x256_S256x256 : S1x256x256.ShapeCasts S256x256
  reduces_S256x256_S256 : S256x256.Reduces [0] S256
  shapeCasts_S256_S1x256 : S256.ShapeCasts S1x256
  transposes_S1x256_p1_0_S256x1 : S1x256.Transposes [1, 0] S256x1
  broadcasts_S256x1_S256x2048 : S256x1.Broadcasts S256x2048
  broadcasts_S1x2048_S256x2048 : S1x2048.Broadcasts S256x2048
  natLt_1_32 : 1 < 32
  bitsLt_bf16_f32 : FTy.bits .bf16 < FTy.bits .f32
  h_S256x2048 : 0 < S256x2048.numel
  shapeCasts_S256x2048_S256x2048 : S256x2048.ShapeCasts S256x2048
  transposes_S1x2048_p1_0_S2048x1 : S1x2048.Transposes [1, 0] S2048x1
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  broadcasts_S1x256_S2048x256 : S1x256.Broadcasts S2048x256
  inb_S2048x2048_S2048x2048_0_0 : ∀ a, (![0, 0] : Fin 2 → Nat) a + S2048x2048.size a ≤ S2048x2048.size a
  h_S2048x2048 : 0 < S2048x2048.numel
  broadcasts_S2048x1_S2048x256 : S2048x1.Broadcasts S2048x256
  reduces_S256x2048_S256 : S256x2048.Reduces [1] S256
  shapeCasts_S256_S256x1 : S256.ShapeCasts S256x1
  inb_S2048_S2048_0 : ∀ a, (![0] : Fin 1 → Nat) a + S2048.size a ≤ S2048.size a
  h_S2048 : 0 < S2048.numel
  shapeCasts_S256x2048_S1x256x2048 : S256x2048.ShapeCasts S1x256x2048
  dot_S256x256_S256x2048_S256x2048_0_0_1_1_n_n_wf : DotDims.WF S256x256 S256x2048 S256x2048 [0] [0] [1] [1] [] []
  dot_S256x2048_S256x256_S2048x256_0_1_1_0_n_n_wf : DotDims.WF S256x2048 S256x256 S2048x256 [0] [1] [1] [0] [] []
  dot_S2048x2048_S2048x256_S2048x256_1_0_0_1_n_n_wf : DotDims.WF S2048x2048 S2048x256 S2048x256 [1] [0] [0] [1] [] []
  dot_S2048x256_S2048x2048_S256x2048_0_0_1_1_n_n_wf : DotDims.WF S2048x256 S2048x2048 S256x2048 [0] [0] [1] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x256.size a ≤ S1x256x2048.size a
  k0_off2_inb : ∀ k0_t1 : Fin k0_t1_loop.trips, ∀ a, (k0_off2 k0_t1) a + S256x2048.size a ≤ S2048x2048.size a
  k0_off2_packedbf16 : ∀ k0_t1 : Fin k0_t1_loop.trips, (Rect.unit (s := S2048x2048) (k0_off2 k0_t1) S256x2048.size (k0_off2_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x2048.size a
  hwx0_0 : ∀ i : grid0.Coords, EltTy.bits .f32 = 32 ∨ (Rect.block (s := S8x256x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x256x2048.size a
  hwx0_5 : ∀ i : grid0.Coords, EltTy.bits .f32 = 32 ∨ (Rect.block (s := S8x256x2048) S1x256x2048.size (cc0_transform_5 i) (hinb0_5 i)).WholeWords (EltTy.packing .f32)

variable [Facts₀]

def dot_S256x256_S256x2048_S256x2048_0_0_1_1_n_n : DotDims S256x256 S256x2048 S256x2048 where
  lhsContracting := [0]
  rhsContracting := [0]
  lhsNonContracting := [1]
  rhsNonContracting := [1]
  lhsBatch := []
  rhsBatch := []
  wf := dot_S256x256_S256x2048_S256x2048_0_0_1_1_n_n_wf
def dot_S256x2048_S256x256_S2048x256_0_1_1_0_n_n : DotDims S256x2048 S256x256 S2048x256 where
  lhsContracting := [0]
  rhsContracting := [1]
  lhsNonContracting := [1]
  rhsNonContracting := [0]
  lhsBatch := []
  rhsBatch := []
  wf := dot_S256x2048_S256x256_S2048x256_0_1_1_0_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S2048x2048_S256x2048_0_0_1_1_n_n : DotDims S2048x256 S2048x2048 S256x2048 where
  lhsContracting := [0]
  rhsContracting := [0]
  lhsNonContracting := [1]
  rhsNonContracting := [1]
  lhsBatch := []
  rhsBatch := []
  wf := dot_S2048x256_S2048x2048_S256x2048_0_0_1_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x256x2048 : Shape := ⟨3, ![8, 256, 2048]⟩
abbrev S256x256 : Shape := ⟨2, ![256, 256]⟩
abbrev S256 : Shape := ⟨1, ![256]⟩
abbrev S2048 : Shape := ⟨1, ![2048]⟩
abbrev S8x2048x256 : Shape := ⟨3, ![8, 2048, 256]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S1x1x256 : Shape := ⟨3, ![1, 1, 256]⟩
abbrev S8x256 : Shape := ⟨2, ![8, 256]⟩
abbrev S8x256x1 : Shape := ⟨3, ![8, 256, 1]⟩
abbrev S1x1x2048 : Shape := ⟨3, ![1, 1, 2048]⟩

abbrev nBuf : Space → Nat
  | .hbm => 104
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S256x256, .f32⟩
  | .hbm, ⟨2, _⟩ => ⟨S256, .f32⟩
  | .hbm, ⟨3, _⟩ => ⟨S2048, .f32⟩
  | .hbm, ⟨4, _⟩ => ⟨S2048, .f32⟩
  | .hbm, ⟨5, _⟩ => ⟨S8x2048x256, .f32⟩
  | .hbm, ⟨6, _⟩ => ⟨S8x2048x256, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S8x1x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .i1⟩
  | .hbm, ⟨26, _⟩ => ⟨S8x2048x2048, .f32⟩
  | .hbm, ⟨27, _⟩ => ⟨S8x2048x256, .f32⟩
  | .hbm, ⟨28, _⟩ => ⟨S1x1x256, .f32⟩
  | .hbm, ⟨29, _⟩ => ⟨S8x2048x256, .f32⟩
  | .hbm, ⟨30, _⟩ => ⟨S8x2048x256, .f32⟩
  | .hbm, ⟨31, _⟩ => ⟨S8x2048x2048, .f32⟩
  | .hbm, ⟨32, _⟩ => ⟨S8x2048x256, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .i1⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x256, .f32⟩
  | .hbm, ⟨47, _⟩ => ⟨S8x2048x256, .f32⟩
  | .hbm, ⟨48, _⟩ => ⟨S8x2048x256, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .i1⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S_, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x256, .f32⟩
  | .hbm, ⟨63, _⟩ => ⟨S8x2048x256, .f32⟩
  | .hbm, ⟨64, _⟩ => ⟨S8x2048x256, .f32⟩
  | .hbm, ⟨65, _⟩ => ⟨S8x256x2048, .f32⟩
  | .hbm, ⟨66, _⟩ => ⟨S_, .f32⟩
  | .hbm, ⟨67, _⟩ => ⟨S8x256, .f32⟩
  | .hbm, ⟨68, _⟩ => ⟨S8x256x1, .f32⟩
  | .hbm, ⟨69, _⟩ => ⟨S_, .f32⟩
  | .hbm, ⟨70, _⟩ => ⟨S8x256x1, .f32⟩
  | .hbm, ⟨71, _⟩ => ⟨S8x256x1, .f32⟩
  | .hbm, ⟨72, _⟩ => ⟨S8x256x2048, .f32⟩
  | .hbm, ⟨73, _⟩ => ⟨S8x256x2048, .f32⟩
  | .hbm, ⟨74, _⟩ => ⟨S8x256x2048, .f32⟩
  | .hbm, ⟨75, _⟩ => ⟨S_, .f32⟩
  | .hbm, ⟨76, _⟩ => ⟨S8x256, .f32⟩
  | .hbm, ⟨77, _⟩ => ⟨S8x256x1, .f32⟩
  | .hbm, ⟨78, _⟩ => ⟨S_, .f32⟩
  | .hbm, ⟨79, _⟩ => ⟨S8x256x1, .f32⟩
  | .hbm, ⟨80, _⟩ => ⟨S8x256x1, .f32⟩
  | .hbm, ⟨81, _⟩ => ⟨S8x256x2048, .f32⟩
  | .hbm, ⟨82, _⟩ => ⟨S8x256x2048, .f32⟩
  | .hbm, ⟨83, _⟩ => ⟨S_, .f32⟩
  | .hbm, ⟨84, _⟩ => ⟨S8x256x1, .f32⟩
  | .hbm, ⟨85, _⟩ => ⟨S8x256x1, .f32⟩
  | .hbm, ⟨86, _⟩ => ⟨S8x256x1, .f32⟩
  | .hbm, ⟨87, _⟩ => ⟨S8x256x2048, .f32⟩
  | .hbm, ⟨88, _⟩ => ⟨S8x256x2048, .f32⟩
  | .hbm, ⟨89, _⟩ => ⟨S1x1x2048, .f32⟩
  | .hbm, ⟨90, _⟩ => ⟨S8x256x2048, .f32⟩
  | .hbm, ⟨91, _⟩ => ⟨S8x256x2048, .f32⟩
  | .hbm, ⟨92, _⟩ => ⟨S1x1x2048, .f32⟩
  | .hbm, ⟨93, _⟩ => ⟨S8x256x2048, .f32⟩
  | .hbm, ⟨94, _⟩ => ⟨S8x256x2048, .f32⟩
  | .hbm, ⟨95, _⟩ => ⟨S8x256x2048, .f32⟩
  | .hbm, ⟨96, _⟩ => ⟨S8x256x2048, .f32⟩
  | .hbm, ⟨97, _⟩ => ⟨S_, .f32⟩
  | .hbm, ⟨98, _⟩ => ⟨S8x256x2048, .f32⟩
  | .hbm, ⟨99, _⟩ => ⟨S8x256x2048, .f32⟩
  | .hbm, ⟨100, _⟩ => ⟨S_, .f32⟩
  | .hbm, ⟨101, _⟩ => ⟨S8x256x2048, .f32⟩
  | .hbm, ⟨102, _⟩ => ⟨S8x256x2048, .f32⟩
  | .hbm, ⟨103, _⟩ => ⟨S8x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_call1_v0 : Ref sig .tc := ⟨.hbm, 59, rfl⟩
abbrev main_call1_v1 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]

class Facts₀ : Prop where
  transposes_S8x256x2048_S8x2048x256_0_2_1 : S8x256x2048.Transposes [0, 2, 1] S8x2048x256
  reducesTo_S8x2048x256_S8x2048_d2 : S8x2048x256.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  transposes_S8x2048x2048_S8x2048x2048_0_2_1 : S8x2048x2048.Transposes [0, 2, 1] S8x2048x2048
  reducesTo_S8x2048x2048_S8x2048_d2 : S8x2048x2048.ReducesTo [2] S8x2048
  bcast_S_S8x2048x1 : S_.BroadcastsInDim S8x2048x1 (![] : Fin 0 → Fin S8x2048x1.rank)
  bcast_S8x2048x1_S8x2048x256_0_1_2 : S8x2048x1.BroadcastsInDim S8x2048x256 (![0, 1, 2] : Fin 3 → Fin S8x2048x256.rank)
  transposes_S8x2048x256_S8x256x2048_0_2_1 : S8x2048x256.Transposes [0, 2, 1] S8x256x2048
  reducesTo_S8x256x2048_S8x256_d2 : S8x256x2048.ReducesTo [2] S8x256
  bcast_S8x256_S8x256x1_0_1 : S8x256.BroadcastsInDim S8x256x1 (![0, 1] : Fin 2 → Fin S8x256x1.rank)
  bcast_S_S8x256x1 : S_.BroadcastsInDim S8x256x1 (![] : Fin 0 → Fin S8x256x1.rank)
  bcast_S8x256x1_S8x256x2048_0_1_2 : S8x256x1.BroadcastsInDim S8x256x2048 (![0, 1, 2] : Fin 3 → Fin S8x256x2048.rank)
  bcast_S2048_S1x1x2048_2 : S2048.BroadcastsInDim S1x1x2048 (![2] : Fin 1 → Fin S1x1x2048.rank)
  bcast_S1x1x2048_S8x256x2048_0_1_2 : S1x1x2048.BroadcastsInDim S8x256x2048 (![0, 1, 2] : Fin 3 → Fin S8x256x2048.rank)
  bcast_S_S8x256x2048 : S_.BroadcastsInDim S8x256x2048 (![] : Fin 0 → Fin S8x256x2048.rank)
  dot_S8x2048x256_S8x2048x256_S8x2048x2048_2_2_1_1_0_0_wf : DotDims.WF S8x2048x256 S8x2048x256 S8x2048x2048 [2] [2] [1] [1] [0] [0]
  dot_S8x2048x256_S256x256_S8x2048x256_2_1_01_0_n_n_wf : DotDims.WF S8x2048x256 S256x256 S8x2048x256 [2] [1] [0, 1] [0] [] []
  dot_S8x2048x2048_S8x2048x256_S8x2048x256_2_1_1_2_0_0_wf : DotDims.WF S8x2048x2048 S8x2048x256 S8x2048x256 [2] [1] [1] [2] [0] [0]

variable [Facts₀]

def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KernelCover.lean ====
/-
  The scratch matrix after the counted loop, whatever it held before.

  Trip `k` of the loop stores a 256 × 2048 block at rows `256 k … 256 k + 255` of the 2048 × 2048 scratch matrix, so the
  pieces stored before trip `k` cover its first `256 k` rows and, after the eighth trip, all of it. What a load reads of a
  buffer whose writes cover the loaded indices is the last covering write at each index — no index shows what lay beneath —
  so a load of the scratch matrix after the loop is the same whatever the scratch held when the body started.
-/
import proofs.«151105_j32813550141848_2_alg».proof.Proof.Gen.Kernel.Loops
import Idealize.ShloMosaic.Lib.Pipeline.FrameBody

noncomputable section

namespace Cert.Kernel.GenP

open Cert.Kernel Cert.Kernel.Gen Idealize.ShloMosaic Idealize.ShloMosaic.TcCoe Idealize.SL.Sem

variable {F : FTy → Type} [FloatOps F]

/-- The loop makes eight trips. -/
theorem trips_eight : k0_t1_loop.trips = 8 := by decide +kernel

section Pieces

variable (𝒱 : Variants) (c : Dev nD) (bd : Option 𝒱.V) (i : grid0.Coords)
  (arg1 : Memref sig .tc .vmem S1x256x2048 .f32) (harg1 : arg1.IsWhole) (arg2 : Memref sig .tc .vmem S256x256 .f32) (harg2 : arg2.IsWhole)
  (arg3 : Memref sig .tc .vmem S256 .f32) (harg3 : arg3.IsWhole) (arg4 : Memref sig .tc .vmem S2048 .f32) (harg4 : arg4.IsWhole)
  (arg5 : Memref sig .tc .vmem S2048 .f32) (harg5 : arg5.IsWhole) (arg6 : Memref sig .tc .vmem S1x256x2048 .f32) (harg6 : arg6.IsWhole)
  (arg7 : Memref sig .tc .vmem S2048x2048 .bf16) (harg7 : arg7.IsWhole)
  (v0 : Vec F S1x256x2048 .f32) (X_arg1 : BufTy.Contents (Elt F) arg1.view.ty) (init : FVec F S1x2048 .f32)

/-- One trip stores one piece, at the trip's 256 rows. -/
theorem tripL_one (k : Fin k0_t1_loop.trips) (acc : FVec F S1x2048 .f32) :
    ∃ w, tripL_k0_t1 (F := F) 𝒱 c bd i arg1 harg1 arg2 harg2 arg3 harg3 arg4 harg4 arg5 harg5 arg6 harg6 arg7 harg7 v0 X_arg1 k acc
      = [⟨Rect.unit (s := S2048x2048) (k0_off2 k) S256x2048.size (Gen.k0_off2_inb k), w⟩] := by
  unfold tripL_k0_t1 trip_k0_t1
  exact ⟨_, rfl⟩

/-- The pieces stored before trip `k` cover the first `256 k` rows. -/
theorem st_cover (k : ℕ) (hk : k ≤ 8) (y : S2048x2048.Idx) (hy : (y 0).val < 256 * k) :
    ∃ p ∈ (st_k0_t1 (F := F) 𝒱 c bd i arg1 harg1 arg2 harg2 arg3 harg3 arg4 harg4 arg5 harg5 arg6 harg6 arg7 harg7 v0 X_arg1 init k).2,
      y ∈ p.1.set := by
  induction k with
  | zero => omega
  | succ k ih =>
    have hk' : k < k0_t1_loop.trips := by rw [trips_eight]; omega
    have hs := st_k0_t1_succ (F := F) 𝒱 c bd i arg1 harg1 arg2 harg2 arg3 harg3 arg4 harg4 arg5 harg5 arg6 harg6 arg7 harg7 v0 X_arg1 init ⟨k, hk'⟩
    obtain ⟨w, hw⟩ := tripL_one 𝒱 c bd i arg1 harg1 arg2 harg2 arg3 harg3 arg4 harg4 arg5 harg5 arg6 harg6 arg7 harg7 v0 X_arg1 ⟨k, hk'⟩
      (st_k0_t1 (F := F) 𝒱 c bd i arg1 harg1 arg2 harg2 arg3 harg3 arg4 harg4 arg5 harg5 arg6 harg6 arg7 harg7 v0 X_arg1 init k).1
    rw [show (st_k0_t1 (F := F) 𝒱 c bd i arg1 harg1 arg2 harg2 arg3 harg3 arg4 harg4 arg5 harg5 arg6 harg6 arg7 harg7 v0 X_arg1 init (k + 1)).2 = _ from
      (congrArg Prod.snd hs).trans (congrArg (· ++ _) hw), List.singleton_append]
    by_cases hlt : (y 0).val < 256 * k
    · obtain ⟨p, hp, hm⟩ := ih (by omega) hlt
      exact ⟨p, List.mem_cons_of_mem _ hp, hm⟩
    · refine ⟨_, List.mem_cons_self, ?_⟩
      rw [Rect.mem_set_unit, k0_off2_eq]
      intro a
      match a with
      | ⟨0, _⟩ => show 256 * k ≤ (y 0).val ∧ (y 0).val < 256 * k + 256; omega
      | ⟨1, _⟩ => show 0 ≤ (y 1).val ∧ (y 1).val < 0 + 2048; have h1 : (y 1).val < 2048 := (y 1).isLt; omega

/-- After the last trip every index of the scratch matrix is under a stored piece. -/
theorem st_cover_all (y : S2048x2048.Idx) :
    ∃ p ∈ (st_k0_t1 (F := F) 𝒱 c bd i arg1 harg1 arg2 harg2 arg3 harg3 arg4 harg4 arg5 harg5 arg6 harg6 arg7 harg7 v0 X_arg1 init
        (Scf.trips k0_t1_loop.lb k0_t1_loop.ub k0_t1_loop.st)).2, y ∈ p.1.set := by
  rw [show Scf.trips k0_t1_loop.lb k0_t1_loop.ub k0_t1_loop.st = 8 from trips_eight]
  exact st_cover 𝒱 c bd i arg1 harg1 arg2 harg2 arg3 harg3 arg4 harg4 arg5 harg5 arg6 harg6 arg7 harg7 v0 X_arg1 init 8 le_rfl y
    (by have h0 : (y 0).val < 2048 := (y 0).isLt; omega)

/-- So a load of the scratch matrix after the loop reads the same whatever the scratch held before the loop. -/
theorem scratch_load_indep (B : LoadRect S2048x2048) (G G' : BufTy.Contents (Elt F) arg7.view.ty) :
    View.readAt (Elt F) arg7.view B (arg7.view.writes (Elt F) G
        (st_k0_t1 (F := F) 𝒱 c bd i arg1 harg1 arg2 harg2 arg3 harg3 arg4 harg4 arg5 harg5 arg6 harg6 arg7 harg7 v0 X_arg1 init
          (Scf.trips k0_t1_loop.lb k0_t1_loop.ub k0_t1_loop.st)).2)
      = View.readAt (Elt F) arg7.view B (arg7.view.writes (Elt F) G'
        (st_k0_t1 (F := F) 𝒱 c bd i arg1 harg1 arg2 harg2 arg3 harg3 arg4 harg4 arg5 harg5 arg6 harg6 arg7 harg7 v0 X_arg1 init
          (Scf.trips k0_t1_loop.lb k0_t1_loop.ub k0_t1_loop.st)).2) := by
  funext x
  show arg7.view.read (Elt F) _ (B.idx x) = arg7.view.read (Elt F) _ (B.idx x)
  rw [View.read_writes_apply_eq_canon arg7.view G (B.idx x) _
      (st_cover_all 𝒱 c bd i arg1 harg1 arg2 harg2 arg3 harg3 arg4 harg4 arg5 harg5 arg6 harg6 arg7 harg7 v0 X_arg1 init (B.idx x)),
    View.read_writes_apply_eq_canon arg7.view G' (B.idx x) _
      (st_cover_all 𝒱 c bd i arg1 harg1 arg2 harg2 arg3 harg3 arg4 harg4 arg5 harg5 arg6 harg6 arg7 harg7 v0 X_arg1 init (B.idx x))]

end Pieces

end Cert.Kernel.GenP

end
-- ==== Proof.KernelRunA.lean ====
/-
  The kernel body's run at one grid point, with its stored block named independently of what the scratch held.

  The body loads its blocks, walks the counted loop (which fills the scratch matrix with the adjacency rows, eight blocks
  of 256 rows, and carries the degree row), loads the scratch matrix whole, and stores one block of the result. The value
  it stores is a function of the loaded blocks and of the scratch matrix as loaded after the loop; the eight stored pieces
  cover the scratch matrix, so that load — and with it the stored block — is the same whatever the scratch held when the
  body started. The stored block is therefore named with the scratch's canonical contents in place of the unknown ones,
  which is what lets one list of pieces serve every prior state of the scratch.
-/
import proofs.«151105_j32813550141848_2_alg».proof.Proof.Gen.Kernel.Frame.Runs
import proofs.«151105_j32813550141848_2_alg».proof.Proof.KernelCover

-- membership in a rectangle of full extents recurses once per coordinate of the long axes
set_option maxRecDepth 16384

noncomputable section

namespace Cert.Kernel.GenP
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the statement and its run are long
set_option maxHeartbeats 4000000 in
/-- The pieces the body's stores leave in the output block's buffer (last first), with the statement that on whole
    buffers — each input's at its contents, the output's and the scratch's at any contents — the body runs to its
    continuation with the inputs' buffers as they were, the scratch at some contents and the output's buffer with those pieces
    written over what it held. The one piece is the whole block; its value is the body's arithmetic of the loaded blocks, of
    the row the loop carries and of the scratch matrix as loaded after the loop with the canonical contents underneath. -/
noncomputable def kernelRun0_A (c : Dev nD) (i : grid0.Coords) (arg1 : Memref sig .tc .vmem S1x256x2048 .f32) (harg1 : arg1.IsWhole) (arg2 : Memref sig .tc .vmem S256x256 .f32) (harg2 : arg2.IsWhole) (arg3 : Memref sig .tc .vmem S256 .f32) (harg3 : arg3.IsWhole) (arg4 : Memref sig .tc .vmem S2048 .f32) (harg4 : arg4.IsWhole) (arg5 : Memref sig .tc .vmem S2048 .f32) (harg5 : arg5.IsWhole) (arg6 : Memref sig .tc .vmem S1x256x2048 .f32) (harg6 : arg6.IsWhole) (arg7 : Memref sig .tc .vmem S2048x2048 .bf16) (harg7 : arg7.IsWhole)
    (x0 : Vec F S1x256x2048 .f32) (x1 : Vec F S256x256 .f32) (x2 : Vec F S256 .f32) (x3 : Vec F S2048 .f32) (x4 : Vec F S2048 .f32) :
    { L5 : List (View.Piece (Elt F) S1x256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0__kernel i arg1 harg1 arg2 harg2 arg3 harg3 arg4 harg4 arg5 harg5 arg6 harg6 arg7 harg7) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    -- the scratch matrix as loaded after the loop does not depend on its contents before the body (the loop's pieces cover it)
    have hv : kernelRun0_A.sl.v24 c i arg1 harg1 arg2 harg2 arg3 harg3 arg4 harg4 arg5 harg5 arg6 harg6 arg7 harg7 x0 fs0 = kernelRun0_A.sl.v24 c i arg1 harg1 arg2 harg2 arg3 harg3 arg4 harg4 arg5 harg5 arg6 harg6 arg7 harg7 x0 (arg7.view.junk : BufTy.Contents (Elt F) arg7.view.ty) := by
      unfold kernelRun0_A.sl.v24
      exact scratch_load_indep Variants.none c none i arg1 harg1 arg2 harg2 arg3 harg3 arg4 harg4 arg5 harg5 arg6 harg6 arg7 harg7 _ _ _ _ fs0 _
    -- hence neither do the two values the stored block is computed from
    have hr : kernelRun0_A.sl.r c i arg1 harg1 arg2 harg2 arg3 harg3 arg4 harg4 arg5 harg5 arg6 harg6 arg7 harg7 x0 x1 x2 fs0 = kernelRun0_A.sl.r c i arg1 harg1 arg2 harg2 arg3 harg3 arg4 harg4 arg5 harg5 arg6 harg6 arg7 harg7 x0 x1 x2 (arg7.view.junk : BufTy.Contents (Elt F) arg7.view.ty) := by
      unfold kernelRun0_A.sl.r; rw [hv]
    have hr1 : kernelRun0_A.sl.r_1 c i arg1 harg1 arg2 harg2 arg3 harg3 arg4 harg4 arg5 harg5 arg6 harg6 arg7 harg7 x0 x1 x2 fs0 = kernelRun0_A.sl.r_1 c i arg1 harg1 arg2 harg2 arg3 harg3 arg4 harg4 arg5 harg5 arg6 harg6 arg7 harg7 x0 x1 x2 (arg7.view.junk : BufTy.Contents (Elt F) arg7.view.ty) := by
      unfold kernelRun0_A.sl.r_1; rw [hv]
    rw [hr, hr1]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact HS0
    ipureintro; rfl

end Cert.Kernel.GenP

end
-- ==== Proof.KernelIdealCover.lean ====
/-
  The scratch matrix after the counted loop, whatever it held before.

  Trip `k` of the loop stores a 256 × 2048 block at rows `256 k … 256 k + 255` of the 2048 × 2048 scratch matrix, so the
  pieces stored before trip `k` cover its first `256 k` rows and, after the eighth trip, all of it. What a load reads of a
  buffer whose writes cover the loaded indices is the last covering write at each index — no index shows what lay beneath —
  so a load of the scratch matrix after the loop is the same whatever the scratch held when the body started.
-/
import proofs.«151105_j32813550141848_2_alg».proof.Proof.Gen.KernelIdeal.Loops
import Idealize.ShloMosaic.Lib.Pipeline.FrameBody

noncomputable section

namespace Cert.KernelIdeal.GenP

open Cert.KernelIdeal Cert.KernelIdeal.Gen Idealize.ShloMosaic Idealize.ShloMosaic.TcCoe Idealize.SL.Sem

variable {F : FTy → Type} [FloatOps F]

/-- The loop makes eight trips. -/
theorem trips_eight : k0_t1_loop.trips = 8 := by decide +kernel

section Pieces

variable (𝒱 : Variants) (c : Dev nD) (bd : Option 𝒱.V) (i : grid0.Coords)
  (arg1 : Memref sig .tc .vmem S1x256x2048 .f32) (harg1 : arg1.IsWhole) (arg2 : Memref sig .tc .vmem S256x256 .f32) (harg2 : arg2.IsWhole)
  (arg3 : Memref sig .tc .vmem S256 .f32) (harg3 : arg3.IsWhole) (arg4 : Memref sig .tc .vmem S2048 .f32) (harg4 : arg4.IsWhole)
  (arg5 : Memref sig .tc .vmem S2048 .f32) (harg5 : arg5.IsWhole) (arg6 : Memref sig .tc .vmem S1x256x2048 .f32) (harg6 : arg6.IsWhole)
  (arg7 : Memref sig .tc .vmem S2048x2048 .bf16) (harg7 : arg7.IsWhole)
  (v0 : Vec F S1x256x2048 .f32) (X_arg1 : BufTy.Contents (Elt F) arg1.view.ty) (init : FVec F S1x2048 .f32)

/-- One trip stores one piece, at the trip's 256 rows. -/
theorem tripL_one (k : Fin k0_t1_loop.trips) (acc : FVec F S1x2048 .f32) :
    ∃ w, tripL_k0_t1 (F := F) 𝒱 c bd i arg1 harg1 arg2 harg2 arg3 harg3 arg4 harg4 arg5 harg5 arg6 harg6 arg7 harg7 v0 X_arg1 k acc
      = [⟨Rect.unit (s := S2048x2048) (k0_off2 k) S256x2048.size (Gen.k0_off2_inb k), w⟩] := by
  unfold tripL_k0_t1 trip_k0_t1
  exact ⟨_, rfl⟩

/-- The pieces stored before trip `k` cover the first `256 k` rows. -/
theorem st_cover (k : ℕ) (hk : k ≤ 8) (y : S2048x2048.Idx) (hy : (y 0).val < 256 * k) :
    ∃ p ∈ (st_k0_t1 (F := F) 𝒱 c bd i arg1 harg1 arg2 harg2 arg3 harg3 arg4 harg4 arg5 harg5 arg6 harg6 arg7 harg7 v0 X_arg1 init k).2,
      y ∈ p.1.set := by
  induction k with
  | zero => omega
  | succ k ih =>
    have hk' : k < k0_t1_loop.trips := by rw [trips_eight]; omega
    have hs := st_k0_t1_succ (F := F) 𝒱 c bd i arg1 harg1 arg2 harg2 arg3 harg3 arg4 harg4 arg5 harg5 arg6 harg6 arg7 harg7 v0 X_arg1 init ⟨k, hk'⟩
    obtain ⟨w, hw⟩ := tripL_one 𝒱 c bd i arg1 harg1 arg2 harg2 arg3 harg3 arg4 harg4 arg5 harg5 arg6 harg6 arg7 harg7 v0 X_arg1 ⟨k, hk'⟩
      (st_k0_t1 (F := F) 𝒱 c bd i arg1 harg1 arg2 harg2 arg3 harg3 arg4 harg4 arg5 harg5 arg6 harg6 arg7 harg7 v0 X_arg1 init k).1
    rw [show (st_k0_t1 (F := F) 𝒱 c bd i arg1 harg1 arg2 harg2 arg3 harg3 arg4 harg4 arg5 harg5 arg6 harg6 arg7 harg7 v0 X_arg1 init (k + 1)).2 = _ from
      (congrArg Prod.snd hs).trans (congrArg (· ++ _) hw), List.singleton_append]
    by_cases hlt : (y 0).val < 256 * k
    · obtain ⟨p, hp, hm⟩ := ih (by omega) hlt
      exact ⟨p, List.mem_cons_of_mem _ hp, hm⟩
    · refine ⟨_, List.mem_cons_self, ?_⟩
      rw [Rect.mem_set_unit, k0_off2_eq]
      intro a
      match a with
      | ⟨0, _⟩ => show 256 * k ≤ (y 0).val ∧ (y 0).val < 256 * k + 256; omega
      | ⟨1, _⟩ => show 0 ≤ (y 1).val ∧ (y 1).val < 0 + 2048; have h1 : (y 1).val < 2048 := (y 1).isLt; omega

/-- After the last trip every index of the scratch matrix is under a stored piece. -/
theorem st_cover_all (y : S2048x2048.Idx) :
    ∃ p ∈ (st_k0_t1 (F := F) 𝒱 c bd i arg1 harg1 arg2 harg2 arg3 harg3 arg4 harg4 arg5 harg5 arg6 harg6 arg7 harg7 v0 X_arg1 init
        (Scf.trips k0_t1_loop.lb k0_t1_loop.ub k0_t1_loop.st)).2, y ∈ p.1.set := by
  rw [show Scf.trips k0_t1_loop.lb k0_t1_loop.ub k0_t1_loop.st = 8 from trips_eight]
  exact st_cover 𝒱 c bd i arg1 harg1 arg2 harg2 arg3 harg3 arg4 harg4 arg5 harg5 arg6 harg6 arg7 harg7 v0 X_arg1 init 8 le_rfl y
    (by have h0 : (y 0).val < 2048 := (y 0).isLt; omega)

/-- So a load of the scratch matrix after the loop reads the same whatever the scratch held before the loop. -/
theorem scratch_load_indep (B : LoadRect S2048x2048) (G G' : BufTy.Contents (Elt F) arg7.view.ty) :
    View.readAt (Elt F) arg7.view B (arg7.view.writes (Elt F) G
        (st_k0_t1 (F := F) 𝒱 c bd i arg1 harg1 arg2 harg2 arg3 harg3 arg4 harg4 arg5 harg5 arg6 harg6 arg7 harg7 v0 X_arg1 init
          (Scf.trips k0_t1_loop.lb k0_t1_loop.ub k0_t1_loop.st)).2)
      = View.readAt (Elt F) arg7.view B (arg7.view.writes (Elt F) G'
        (st_k0_t1 (F := F) 𝒱 c bd i arg1 harg1 arg2 harg2 arg3 harg3 arg4 harg4 arg5 harg5 arg6 harg6 arg7 harg7 v0 X_arg1 init
          (Scf.trips k0_t1_loop.lb k0_t1_loop.ub k0_t1_loop.st)).2) := by
  funext x
  show arg7.view.read (Elt F) _ (B.idx x) = arg7.view.read (Elt F) _ (B.idx x)
  rw [View.read_writes_apply_eq_canon arg7.view G (B.idx x) _
      (st_cover_all 𝒱 c bd i arg1 harg1 arg2 harg2 arg3 harg3 arg4 harg4 arg5 harg5 arg6 harg6 arg7 harg7 v0 X_arg1 init (B.idx x)),
    View.read_writes_apply_eq_canon arg7.view G' (B.idx x) _
      (st_cover_all 𝒱 c bd i arg1 harg1 arg2 harg2 arg3 harg3 arg4 harg4 arg5 harg5 arg6 harg6 arg7 harg7 v0 X_arg1 init (B.idx x))]

end Pieces

end Cert.KernelIdeal.GenP

end
-- ==== Proof.KernelIdealRunA.lean ====
/-
  The kernel body's run at one grid point, with its stored block named independently of what the scratch held.

  The body loads its blocks, walks the counted loop (which fills the scratch matrix with the adjacency rows, eight blocks
  of 256 rows, and carries the degree row), loads the scratch matrix whole, and stores one block of the result. The value
  it stores is a function of the loaded blocks and of the scratch matrix as loaded after the loop; the eight stored pieces
  cover the scratch matrix, so that load — and with it the stored block — is the same whatever the scratch held when the
  body started. The stored block is therefore named with the scratch's canonical contents in place of the unknown ones,
  which is what lets one list of pieces serve every prior state of the scratch.
-/
import proofs.«151105_j32813550141848_2_alg».proof.Proof.Gen.KernelIdeal.Frame.Runs
import proofs.«151105_j32813550141848_2_alg».proof.Proof.KernelIdealCover

-- membership in a rectangle of full extents recurses once per coordinate of the long axes
set_option maxRecDepth 16384

noncomputable section

namespace Cert.KernelIdeal.GenP
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the statement and its run are long
set_option maxHeartbeats 4000000 in
/-- The pieces the body's stores leave in the output block's buffer (last first), with the statement that on whole
    buffers — each input's at its contents, the output's and the scratch's at any contents — the body runs to its
    continuation with the inputs' buffers as they were, the scratch at some contents and the output's buffer with those pieces
    written over what it held. The one piece is the whole block; its value is the body's arithmetic of the loaded blocks, of
    the row the loop carries and of the scratch matrix as loaded after the loop with the canonical contents underneath. -/
noncomputable def kernelRun0_A (c : Dev nD) (i : grid0.Coords) (arg1 : Memref sig .tc .vmem S1x256x2048 .f32) (harg1 : arg1.IsWhole) (arg2 : Memref sig .tc .vmem S256x256 .f32) (harg2 : arg2.IsWhole) (arg3 : Memref sig .tc .vmem S256 .f32) (harg3 : arg3.IsWhole) (arg4 : Memref sig .tc .vmem S2048 .f32) (harg4 : arg4.IsWhole) (arg5 : Memref sig .tc .vmem S2048 .f32) (harg5 : arg5.IsWhole) (arg6 : Memref sig .tc .vmem S1x256x2048 .f32) (harg6 : arg6.IsWhole) (arg7 : Memref sig .tc .vmem S2048x2048 .bf16) (harg7 : arg7.IsWhole)
    (x0 : Vec F S1x256x2048 .f32) (x1 : Vec F S256x256 .f32) (x2 : Vec F S256 .f32) (x3 : Vec F S2048 .f32) (x4 : Vec F S2048 .f32) :
    { L5 : List (View.Piece (Elt F) S1x256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0__kernel i arg1 harg1 arg2 harg2 arg3 harg3 arg4 harg4 arg5 harg5 arg6 harg6 arg7 harg7) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    -- the scratch matrix as loaded after the loop does not depend on its contents before the body (the loop's pieces cover it)
    have hv : kernelRun0_A.sl.v24 c i arg1 harg1 arg2 harg2 arg3 harg3 arg4 harg4 arg5 harg5 arg6 harg6 arg7 harg7 x0 fs0 = kernelRun0_A.sl.v24 c i arg1 harg1 arg2 harg2 arg3 harg3 arg4 harg4 arg5 harg5 arg6 harg6 arg7 harg7 x0 (arg7.view.junk : BufTy.Contents (Elt F) arg7.view.ty) := by
      unfold kernelRun0_A.sl.v24
      exact scratch_load_indep Variants.none c none i arg1 harg1 arg2 harg2 arg3 harg3 arg4 harg4 arg5 harg5 arg6 harg6 arg7 harg7 _ _ _ _ fs0 _
    -- hence neither do the two values the stored block is computed from
    have hr : kernelRun0_A.sl.r c i arg1 harg1 arg2 harg2 arg3 harg3 arg4 harg4 arg5 harg5 arg6 harg6 arg7 harg7 x0 x1 x2 fs0 = kernelRun0_A.sl.r c i arg1 harg1 arg2 harg2 arg3 harg3 arg4 harg4 arg5 harg5 arg6 harg6 arg7 harg7 x0 x1 x2 (arg7.view.junk : BufTy.Contents (Elt F) arg7.view.ty) := by
      unfold kernelRun0_A.sl.r; rw [hv]
    have hr1 : kernelRun0_A.sl.r_1 c i arg1 harg1 arg2 harg2 arg3 harg3 arg4 harg4 arg5 harg5 arg6 harg6 arg7 harg7 x0 x1 x2 fs0 = kernelRun0_A.sl.r_1 c i arg1 harg1 arg2 harg2 arg3 harg3 arg4 harg4 arg5 harg5 arg6 harg6 arg7 harg7 x0 x1 x2 (arg7.view.junk : BufTy.Contents (Elt F) arg7.view.ty) := by
      unfold kernelRun0_A.sl.r_1; rw [hv]
    rw [hr, hr1]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact HS0
    ipureintro; rfl

end Cert.KernelIdeal.GenP

end
-- ==== Proof.Spec.lean ====
/-
  One batch of the layer, as mathematics on the extended reals.

  A batch is a feature matrix `X` (256 channels by 2048 nodes). Two nodes are adjacent when the squared distance of
  their feature columns, `|x_i|² + |x_j|² - 2 ⟨x_i, x_j⟩`, is below a threshold; a dense layer `x_d ↦ W x_d + b` is
  averaged over each node's neighbours, the averages are averaged again over the neighbours, the result is added to
  `X`, each channel is normalised over the nodes (mean, variance, a small shift under the root, a scale and a shift per
  node) and passed through `z ↦ z · logistic z`.

  The same function is written here in two arrangements. In the first the adjacency compares the squared distance
  with 484 and the averages walk the adjacency matrix along whichever axis is at hand; in the second the adjacency
  compares the root of the squared distance, clamped at zero, with 22, and the averages walk the matrix and its
  transpose as the definition of the two averages says. They agree because a root of a non-negative number is below
  22 exactly when the number is below 22² = 484, and because the adjacency matrix is symmetric: the squared distance
  is built from a commutative sum and a commutative product. Nothing here needs the entries to be finite.
-/
import Idealize.ShloMosaic.PureOps.Ideal
import Idealize.ShloMosaic.PureOps.Ideal.Laws

noncomputable section

namespace Cert.Hyper

open Idealize.ShloMosaic

/-! ## The float words that are evaluated -/

/-- The word of `1.0` is the number one. -/
theorem word_one : Ideal.ofBits .f32 0x3F800000#32 = 1 := by
  simp [Ideal.ofBits, Ideal.ieee, -EReal.coe_mul]; norm_num

/-- The word of `22.0` is the real 22. -/
theorem word_22 : Ideal.ofBits .f32 0x41B00000#32 = ((22 : ℝ) : EReal) := by
  simp [Ideal.ofBits, Ideal.ieee, -EReal.coe_mul]; norm_num

/-- The word of `484.0` is the real 484, the square of 22. -/
theorem word_484 : Ideal.ofBits .f32 0x43F20000#32 = ((484 : ℝ) : EReal) := by
  simp [Ideal.ofBits, Ideal.ieee, -EReal.coe_mul]; norm_num

/-! ## The threshold -/

/-- The root of an extended real clamped at zero is below 22 exactly when the number is below 484: at `-∞` both hold
    (the clamp gives zero), at `+∞` neither, and on the reals it is the monotonicity of the root with `22² = 484`. -/
theorem root_lt_iff (d : EReal) :
    Ideal.sqrt (max d 0) < Ideal.ofBits .f32 0x41B00000#32 ↔ d < Ideal.ofBits .f32 0x43F20000#32 := by
  rw [word_22, word_484]
  induction d using EReal.rec with
  | bot =>
    rw [max_eq_right bot_le, ← EReal.coe_zero, Ideal.sqrt_coe, if_neg (lt_irrefl _), Real.sqrt_zero]
    exact ⟨fun _ => EReal.bot_lt_coe _, fun _ => EReal.coe_lt_coe_iff.mpr (by norm_num)⟩
  | top =>
    rw [max_eq_left le_top, Ideal.sqrt_top]
    exact ⟨fun h => absurd h (not_lt.mpr le_top), fun h => absurd h (not_lt.mpr le_top)⟩
  | coe r =>
    have hm : max (r : EReal) 0 = ((max r 0 : ℝ) : EReal) := by
      rw [← EReal.coe_zero]; exact (EReal.coe_strictMono.monotone.map_max).symm
    rw [hm, Ideal.sqrt_coe, if_neg (not_lt.mpr (le_max_right r 0)), EReal.coe_lt_coe_iff, EReal.coe_lt_coe_iff,
      Real.sqrt_lt' (by norm_num : (0 : ℝ) < 22)]
    constructor
    · intro h; exact lt_of_le_of_lt (le_max_left r 0) (by linarith)
    · intro h; exact max_lt (by linarith) (by norm_num)

/-- A truth value as the number one or zero. -/
def ind (p : Prop) [Decidable p] : EReal := if p then 1 else 0

section Batch

variable (X : Fin 256 → Fin 2048 → EReal) (W : Fin 256 → Fin 256 → EReal) (bias : Fin 256 → EReal)

/-- The squared length of node `j`'s feature column. -/
def sqn (j : Fin 2048) : EReal := ∑ c : Fin 256, X c j * X c j

/-- The inner product of the feature columns of nodes `i` and `j`. -/
def gram (i j : Fin 2048) : EReal := ∑ c : Fin 256, X c i * X c j

/-- The squared distance of the two columns, as both programs spell it (the factor is the word of `2.0`). -/
def dist2 (i j : Fin 2048) : EReal := (sqn X i + sqn X j) - Ideal.ofBits .f32 0x40000000#32 * gram X i j

/-- Adjacency decided on the squared distance, against 484. -/
def adj (i j : Fin 2048) : EReal := ind (dist2 X i j < Ideal.ofBits .f32 0x43F20000#32)

/-- Adjacency decided on the distance (the root of the clamped squared distance), against 22. -/
def adjRoot (i j : Fin 2048) : EReal := ind (Ideal.sqrt (max (dist2 X i j) 0) < Ideal.ofBits .f32 0x41B00000#32)

/-- The number of neighbours of node `j`: a column sum of the adjacency matrix. -/
def deg (j : Fin 2048) : EReal := ∑ i : Fin 2048, adj X i j

/-- The reciprocal that an average multiplies by: zero for an empty neighbourhood. -/
def recip (d : EReal) : EReal := if d = 0 then 0 else Ideal.div (Ideal.ofBits .f32 0x3F800000#32) d

/-- The dense layer at node `d`, output channel `o`. -/
def dense (d : Fin 2048) (o : Fin 256) : EReal := ∑ c : Fin 256, X c d * W o c + bias o

/-- First average (nodes to edges), the adjacency matrix walked along its rows. -/
def edge (d : Fin 2048) (o : Fin 256) : EReal :=
  recip (deg X d) * ∑ e : Fin 2048, adj X d e * dense X W bias e o

/-- Second average (edges to nodes), channel-major, the matrix walked along its columns, plus the residual. -/
def resid (c : Fin 256) (n : Fin 2048) : EReal :=
  (∑ e : Fin 2048, edge X W bias e c * adj X e n) * recip (deg X n) + X c n

/-- The first average as its definition says: the transposed matrix times the dense layer, over the transposed
    matrix's row sums. -/
def edgeT (t : Fin 2048) (o : Fin 256) : EReal :=
  recip (∑ s : Fin 2048, adjRoot X s t) * ∑ s : Fin 2048, adjRoot X s t * dense X W bias s o

/-- The second average as its definition says, node-major. -/
def nodeT (t : Fin 2048) (o : Fin 256) : EReal :=
  recip (∑ s : Fin 2048, adjRoot X t s) * ∑ s : Fin 2048, adjRoot X t s * edgeT X W bias s o

/-- The residual in the second arrangement, read channel-major. -/
def residT (c : Fin 256) (n : Fin 2048) : EReal := nodeT X W bias n c + X c n

/-! ### The two arrangements agree -/

theorem gram_comm (i j : Fin 2048) : gram X i j = gram X j i :=
  Finset.sum_congr rfl fun c _ => mul_comm _ _

theorem dist2_comm (i j : Fin 2048) : dist2 X i j = dist2 X j i := by
  unfold dist2; rw [add_comm (sqn X i), gram_comm]

/-- The adjacency matrix is symmetric. -/
theorem adj_comm (i j : Fin 2048) : adj X i j = adj X j i := by
  unfold adj; rw [dist2_comm]

/-- Deciding on the distance or on its square is the same decision. -/
theorem adjRoot_eq (i j : Fin 2048) : adjRoot X i j = adj X i j := by
  unfold adjRoot adj ind
  exact if_congr (root_lt_iff _) rfl rfl

theorem edgeT_eq (t : Fin 2048) (o : Fin 256) : edgeT X W bias t o = edge X W bias t o := by
  unfold edgeT edge deg
  simp only [adjRoot_eq]
  congr 1
  exact Finset.sum_congr rfl fun s _ => by rw [adj_comm X s t]

/-- The residual is one function in both arrangements. -/
theorem residT_eq (c : Fin 256) (n : Fin 2048) : residT X W bias c n = resid X W bias c n := by
  unfold residT resid nodeT deg
  simp only [adjRoot_eq, edgeT_eq]
  rw [mul_comm (recip _)]
  congr 1
  congr 1
  · exact Finset.sum_congr rfl fun s _ => by rw [mul_comm, adj_comm X n s]
  · exact congrArg recip (Finset.sum_congr rfl fun s _ => adj_comm X n s)

end Batch

/-! ## The normalisation and the activation, of any residual -/

section Tail

variable (Y : Fin 256 → Fin 2048 → EReal) (gam bet : Fin 2048 → EReal)

/-- A channel's mean over the nodes (the divisor is the word of `2048.0`). -/
def mean (c : Fin 256) : EReal := Ideal.div (∑ n : Fin 2048, Y c n) (Ideal.ofBits .f32 0x45000000#32)

/-- A channel's variance over the nodes. -/
def var (c : Fin 256) : EReal :=
  Ideal.div (∑ n : Fin 2048, (Y c n - mean Y c) * (Y c n - mean Y c)) (Ideal.ofBits .f32 0x45000000#32)

/-- The normalised, scaled and shifted entry (the shift under the root is the word both programs spell). -/
def normed (c : Fin 256) (n : Fin 2048) : EReal :=
  (Y c n - mean Y c) * Ideal.rsqrt (var Y c + Ideal.ofBits .f32 0x3727C5AC#32) * gam n + bet n

/-- The layer's output entry: `z · logistic z` of the normalised entry. -/
def out (c : Fin 256) (n : Fin 2048) : EReal := normed Y gam bet c n * Ideal.logistic (normed Y gam bet c n)

end Tail

end Cert.Hyper

end
-- ==== Proof.LibMatmulEntry.lean ====
/-
  A matrix product of two operands into a zero accumulator with a two-axis result, read at an entry, whichever axis of each
  operand is contracted.

  For a dot with one contracted axis of extent `K` and result `[M, N]`, the product accumulated into the zero splat is, at
  the extended reals, the textbook sum: entry `(p, c)` is the sum over `k` of the left operand at `L p k` times the right
  operand at `R c k`, where `L` and `R` say where row `p` (resp. column `c`) and contraction coordinate `k` sit in each
  operand. The dimension numbers enter only through two facts — the dot's operand indices at `(p, c)` and a contraction index
  whose one coordinate is `k` are `L p k` and `R c k` — and through the one contracted axis having extent `K`. So the one
  lemma serves `[M,K]×[K,N]`, `[M,K]×[N,K]`, `[K,M]×[K,N]` and `[K,M]×[N,K]` alike, and operands of any rank; it is general in
  the extents, the element types and the contraction precision.
-/
import Idealize.ShloMosaic.PureOps.Ideal.Laws
import Idealize.ShloMosaic.Lib.ValueIdx

noncomputable section

namespace Cert.LibMatmulEntry

open Idealize.ShloMosaic Idealize.ShloMosaic.ValueIdx
open scoped BigOperators

/-- Entry `(p, c)` of a product accumulated into zero is `Σ k, lhs (L p k) · rhs (R c k)`: the dot's sum over its one-axis
    contraction index, re-indexed along the bijection of that index with `Fin K`, each operand index then named by the
    two given facts. -/
theorem matmul_zero_entry {sl sr : Shape} {M N K : ℕ} {φ₁ φ₂ : FTy}
    (D : DotDims sl sr ⟨2, ![M, N]⟩) (prec : Option ContractPrecision)
    (hr : D.contr.rank = 1) (hs : D.contr.size ⟨0, by omega⟩ = K)
    (L : Fin M → Fin K → sl.Idx) (R : Fin N → Fin K → sr.Idx)
    (hl : ∀ (p : Fin M) (c : Fin N) (q : D.contr.Idx) (k : Fin K), (q ⟨0, by omega⟩).val = k.val →
      D.lhsIdx (ix2 p c) q = L p k)
    (hrr : ∀ (p : Fin M) (c : Fin N) (q : D.contr.Idx) (k : Fin K), (q ⟨0, by omega⟩).val = k.val →
      D.rhsIdx (ix2 p c) q = R c k)
    (lhs : FVec Ideal sl φ₁) (rhs : FVec Ideal sr φ₂) (p : Fin M) (c : Fin N) :
    matmul D prec lhs rhs (constant ⟨2, ![M, N]⟩ .f32 0x00000000#32) (ix2 p c)
      = ∑ k : Fin K, lhs (L p k) * rhs (R c k) := by
  simp only [matmul]
  rw [Ideal.matmul_constant_zero_apply, ← Equiv.sum_comp (contrEquiv1 D K hr hs).symm]
  refine Finset.sum_congr rfl fun k _ => ?_
  have hk := contrEquiv1_symm_val D K hr hs k
  rw [hl p c _ k hk, hrr p c _ k hk]

end Cert.LibMatmulEntry

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KPay.lean ====
/-
  The kernel body's values read at an index, at the extended reals.

  Each value the body stores or carries is a term over the values it loaded. Read at one index, every layout step
  (a unit axis added or dropped, a row or a column spread over a block, a row turned into a column) names one entry
  of its operand, every sum along an axis is a finite sum over that axis, every matrix product into a zero block is
  the textbook sum over the contracted axis, and a comparison turned into a number is an indicator. Reading the
  terms this way gives, entry by entry, the batch's mathematics: the adjacency of a tile's rows, the degree
  accumulated over a tile, the residual after the two neighbour averages, a channel's mean, and the normalised and
  activated output.
-/
import proofs.«151105_j32813550141848_2_alg».proof.Proof.Gen.KernelIdeal.Skeleton
import proofs.«151105_j32813550141848_2_alg».proof.Proof.Spec
import proofs.«151105_j32813550141848_2_alg».proof.Proof.LibMatmulEntry
import proofs.«151105_j32813550141848_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section
namespace Cert.Hyper.Ker
open Cert.KernelIdeal Cert.KernelIdeal.Gen Cert.KernelIdeal.Facts₀ Cert.KernelIdeal.Facts Idealize.ShloMosaic Idealize.ShloMosaic.ValueIdx Cert.Hyper
open scoped BigOperators

/-- One batch's block, read as a feature matrix (channels by nodes); the weight; the bias; a per-node vector. -/
abbrev Xof (v0 : Vec Ideal S1x256x2048 .f32) : Fin 256 → Fin 2048 → EReal := fun c d => v0 (ix3 (0 : Fin 1) c d)
abbrev Wof (v16 : Vec Ideal S256x256 .f32) : Fin 256 → Fin 256 → EReal := fun o c => v16 (ix2 o c)
abbrev Bof (v19 : Vec Ideal S256 .f32) : Fin 256 → EReal := fun o => v19 (ix1 o)
abbrev Vof (v : Vec Ideal S2048 .f32) : Fin 2048 → EReal := fun n => v (ix1 n)

/-! ## Words -/

/-- "Less than", widened to a word and read as a number, is the indicator of the inequality. -/
theorem lt_word (a b : EReal) :
    FloatOps.sitofp (F := Ideal) .f32 ((FloatOps.cmpf (F := Ideal) (φ := .f32) .olt a b).setWidth 32) = ind (a < b) := by
  show ((((BitVec.ofBool (decide (a < b))).setWidth 32).toInt : ℝ) : EReal) = ind (a < b)
  unfold ind
  by_cases h : a < b
  · rw [if_pos h, decide_eq_true h]
    have h1 : ((BitVec.ofBool true).setWidth 32).toInt = 1 := by decide
    rw [h1, Int.cast_one, EReal.coe_one]
  · rw [if_neg h, decide_eq_false h]
    have h0 : ((BitVec.ofBool false).setWidth 32).toInt = 0 := by decide
    rw [h0, Int.cast_zero, EReal.coe_zero]

/-- The reciprocal an average multiplies by: a select on "equal to zero" between zero and one over the number. -/
theorem recip_word (d : EReal) :
    Scalar.select (FloatOps.cmpf (F := Ideal) (φ := .f32) .oeq d (Ideal.ofBits .f32 0x00000000#32))
      (Ideal.ofBits .f32 0x00000000#32) (Ideal.div (Ideal.ofBits .f32 0x3F800000#32) d) = recip d := by
  rw [Ideal.ofBits_zero_f32]
  show Scalar.select (BitVec.ofBool (decide (d = 0))) (0 : EReal) (Ideal.div (Ideal.ofBits .f32 0x3F800000#32) d) = recip d
  unfold recip
  by_cases h : d = 0
  · rw [if_pos h, decide_eq_true h]; exact select_one _ _
  · rw [if_neg h, decide_eq_false h]; exact select_zero _ _

/-- The root-reciprocal and the logistic function of a block, at an index. -/
theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-! ## Layout steps at literal extents -/

section Layout
variable {α : Type}

theorem cast_block (x : S1x256x2048.Idx → α) (c : Fin 256) (d : Fin 2048) :
    shapeCast S256x2048 x Gen.shapeCasts_S1x256x2048_S256x2048 (ix2 c d) = x (ix3 (0 : Fin 1) c d) :=
  shapeCast_1ab_ab_apply x _ c d

theorem cast_tile (x : S1x256x256.Idx → α) (c : Fin 256) (d : Fin 256) :
    shapeCast S256x256 x Gen.shapeCasts_S1x256x256_S256x256 (ix2 c d) = x (ix3 (0 : Fin 1) c d) :=
  shapeCast_1ab_ab_apply x _ c d

theorem cast_out (x : S256x2048.Idx → α) (u : Fin 1) (c : Fin 256) (n : Fin 2048) :
    shapeCast S1x256x2048 x Gen.shapeCasts_S256x2048_S1x256x2048 (ix3 u c n) = x (ix2 c n) :=
  shapeCast_ab_1ab_apply x _ u c n

theorem cast_row2048 (x : S2048.Idx → α) (u : Fin 1) (j : Fin 2048) :
    shapeCast S1x2048 x Gen.shapeCasts_S2048_S1x2048 (ix2 u j) = x (ix1 j) :=
  shapeCast_a_1a_apply x _ u j

theorem cast_row256 (x : S256.Idx → α) (u : Fin 1) (j : Fin 256) :
    shapeCast S1x256 x Gen.shapeCasts_S256_S1x256 (ix2 u j) = x (ix1 j) :=
  shapeCast_a_1a_apply x _ u j

theorem cast_col256 (x : S256.Idx → α) (c : Fin 256) (u : Fin 1) :
    shapeCast S256x1 x Gen.shapeCasts_S256_S256x1 (ix2 c u) = x (ix1 c) :=
  Cert.LibColumn.shapeCast_a_a1_apply x _ c u

theorem tr_row256 (x : S1x256.Idx → α) (c : Fin 256) (u : Fin 1) :
    transpose S256x1 ([1, 0] : List (Fin 2)) x Gen.transposes_S1x256_p1_0_S256x1 (ix2 c u) = x (ix2 u c) :=
  transpose_ix2_apply x _ c u

theorem tr_row2048 (x : S1x2048.Idx → α) (n : Fin 2048) (u : Fin 1) :
    transpose S2048x1 ([1, 0] : List (Fin 2)) x Gen.transposes_S1x2048_p1_0_S2048x1 (ix2 n u) = x (ix2 u n) :=
  transpose_ix2_apply x _ n u

theorem bc_col_256x2048 (x : S256x1.Idx → α) (p : Fin 256) (c : Fin 2048) :
    broadcastTo S256x2048 x Gen.broadcasts_S256x1_S256x2048 (ix2 p c) = x (ix2 p (0 : Fin 1)) :=
  Cert.LibColumn.broadcastTo_a1_ab_apply x _ p c

theorem bc_row_256x2048 (x : S1x2048.Idx → α) (p : Fin 256) (c : Fin 2048) :
    broadcastTo S256x2048 x Gen.broadcasts_S1x2048_S256x2048 (ix2 p c) = x (ix2 (0 : Fin 1) c) :=
  broadcastTo_1b_ab_apply x _ p c

theorem bc_row_2048x256 (x : S1x256.Idx → α) (p : Fin 2048) (c : Fin 256) :
    broadcastTo S2048x256 x Gen.broadcasts_S1x256_S2048x256 (ix2 p c) = x (ix2 (0 : Fin 1) c) :=
  broadcastTo_1b_ab_apply x _ p c

theorem bc_col_2048x256 (x : S2048x1.Idx → α) (p : Fin 2048) (c : Fin 256) :
    broadcastTo S2048x256 x Gen.broadcasts_S2048x1_S2048x256 (ix2 p c) = x (ix2 p (0 : Fin 1)) :=
  Cert.LibColumn.broadcastTo_a1_ab_apply x _ p c

end Layout

/-! ## Sums along one axis -/

/-- A block's column sums: the sum over the channels. -/
theorem sum_rows_256x2048 (v : FVec Ideal S256x2048 .f32) (j : Fin 2048)
    (hφ : FTy.f32 = FTy.f32 ∨ FTy.f32 = FTy.bf16) (hacc : (0x00000000#32 : BitVec 32) = 0x00000000#32) :
    multiReduction .add ([0] : List (Fin 2)) S2048 v 0x00000000#32 Gen.reduces_S256x2048_S2048 hφ hacc (ix1 j)
      = ∑ c : Fin 256, v (ix2 c j) :=
  (Ideal.multiReduction_add_single v _ _ _ _ (ix1 j)).trans
    (Finset.sum_congr rfl fun c _ => congrArg v (funext fun a => Fin.ext (by
      match a with
      | ⟨0, _⟩ => rfl
      | ⟨1, _⟩ => rfl)))

/-- A tile's column sums. -/
theorem sum_rows_256x256 (v : FVec Ideal S256x256 .f32) (j : Fin 256)
    (hφ : FTy.f32 = FTy.f32 ∨ FTy.f32 = FTy.bf16) (hacc : (0x00000000#32 : BitVec 32) = 0x00000000#32) :
    multiReduction .add ([0] : List (Fin 2)) S256 v 0x00000000#32 Gen.reduces_S256x256_S256 hφ hacc (ix1 j)
      = ∑ c : Fin 256, v (ix2 c j) :=
  (Ideal.multiReduction_add_single v _ _ _ _ (ix1 j)).trans
    (Finset.sum_congr rfl fun c _ => congrArg v (funext fun a => Fin.ext (by
      match a with
      | ⟨0, _⟩ => rfl
      | ⟨1, _⟩ => rfl)))

/-- A block's row sums: the sum over the nodes. -/
theorem sum_cols_256x2048 (v : FVec Ideal S256x2048 .f32) (c : Fin 256)
    (hφ : FTy.f32 = FTy.f32 ∨ FTy.f32 = FTy.bf16) (hacc : (0x00000000#32 : BitVec 32) = 0x00000000#32) :
    multiReduction .add ([1] : List (Fin 2)) S256 v 0x00000000#32 Gen.reduces_S256x2048_S256 hφ hacc (ix1 c)
      = ∑ n : Fin 2048, v (ix2 c n) :=
  (Ideal.multiReduction_add_single v _ _ _ _ (ix1 c)).trans
    (Finset.sum_congr rfl fun n _ => congrArg v (funext fun a => Fin.ext (by
      match a with
      | ⟨0, _⟩ => rfl
      | ⟨1, _⟩ => rfl)))

/-! ## The four matrix products, at an entry

For each product's dimension numbers: where the contracted coordinate and the result's coordinate sit in each operand's
index, first coordinate by coordinate, then as the operand's index written by coordinates. -/

/-! ### Tile columns against block columns (both operands contracted along the channels) -/

theorem gramD_lhsC (i : S256x2048.Idx) (q : dot_S256x256_S256x2048_S256x2048_0_0_1_1_n_n.contr.Idx) :
    (dot_S256x256_S256x2048_S256x2048_0_0_1_1_n_n.lhsIdx i q 0).val = (q ⟨0, Nat.one_pos⟩).val :=
  DotDims.lhsIdx_val_of_single (d := dot_S256x256_S256x2048_S256x2048_0_0_1_1_n_n) (cl := 0) rfl i q

theorem gramD_rhsC (i : S256x2048.Idx) (q : dot_S256x256_S256x2048_S256x2048_0_0_1_1_n_n.contr.Idx) :
    (dot_S256x256_S256x2048_S256x2048_0_0_1_1_n_n.rhsIdx i q 0).val = (q ⟨0, Nat.one_pos⟩).val :=
  DotDims.rhsIdx_val_of_single (d := dot_S256x256_S256x2048_S256x2048_0_0_1_1_n_n) (cr := 0) rfl i q

theorem gramD_lhsN (i : S256x2048.Idx) (q : dot_S256x256_S256x2048_S256x2048_0_0_1_1_n_n.contr.Idx) :
    (dot_S256x256_S256x2048_S256x2048_0_0_1_1_n_n.lhsIdx i q 1).val = (i 0).val := by
  unfold DotDims.lhsIdx
  rw [dif_neg (show ¬ (1 : Fin S256x256.rank) ∈ dot_S256x256_S256x2048_S256x2048_0_0_1_1_n_n.lhsBatch by decide),
    dif_pos (show (1 : Fin S256x256.rank) ∈ dot_S256x256_S256x2048_S256x2048_0_0_1_1_n_n.lhsNonContracting by decide)]
  rfl

theorem gramD_rhsN (i : S256x2048.Idx) (q : dot_S256x256_S256x2048_S256x2048_0_0_1_1_n_n.contr.Idx) :
    (dot_S256x256_S256x2048_S256x2048_0_0_1_1_n_n.rhsIdx i q 1).val = (i 1).val := by
  unfold DotDims.rhsIdx
  rw [dif_neg (show ¬ (1 : Fin S256x2048.rank) ∈ dot_S256x256_S256x2048_S256x2048_0_0_1_1_n_n.rhsBatch by decide),
    dif_pos (show (1 : Fin S256x2048.rank) ∈ dot_S256x256_S256x2048_S256x2048_0_0_1_1_n_n.rhsNonContracting by decide)]
  rfl

theorem gramD_lhs (p : Fin 256) (c : Fin 2048) (q : dot_S256x256_S256x2048_S256x2048_0_0_1_1_n_n.contr.Idx) (k : Fin 256)
    (hk : (q ⟨0, Nat.one_pos⟩).val = k.val) :
    dot_S256x256_S256x2048_S256x2048_0_0_1_1_n_n.lhsIdx (ix2 p c) q = ix2 k p :=
  funext fun a => Fin.ext (by
    match a with
    | ⟨0, _⟩ => exact (gramD_lhsC (ix2 p c) q).trans hk
    | ⟨1, _⟩ => exact gramD_lhsN (ix2 p c) q)

theorem gramD_rhs (p : Fin 256) (c : Fin 2048) (q : dot_S256x256_S256x2048_S256x2048_0_0_1_1_n_n.contr.Idx) (k : Fin 256)
    (hk : (q ⟨0, Nat.one_pos⟩).val = k.val) :
    dot_S256x256_S256x2048_S256x2048_0_0_1_1_n_n.rhsIdx (ix2 p c) q = ix2 k c :=
  funext fun a => Fin.ext (by
    match a with
    | ⟨0, _⟩ => exact (gramD_rhsC (ix2 p c) q).trans hk
    | ⟨1, _⟩ => exact gramD_rhsN (ix2 p c) q)

/-! ### Block columns against weight rows -/

theorem denseD_lhsC (i : S2048x256.Idx) (q : dot_S256x2048_S256x256_S2048x256_0_1_1_0_n_n.contr.Idx) :
    (dot_S256x2048_S256x256_S2048x256_0_1_1_0_n_n.lhsIdx i q 0).val = (q ⟨0, Nat.one_pos⟩).val :=
  DotDims.lhsIdx_val_of_single (d := dot_S256x2048_S256x256_S2048x256_0_1_1_0_n_n) (cl := 0) rfl i q

theorem denseD_rhsC (i : S2048x256.Idx) (q : dot_S256x2048_S256x256_S2048x256_0_1_1_0_n_n.contr.Idx) :
    (dot_S256x2048_S256x256_S2048x256_0_1_1_0_n_n.rhsIdx i q 1).val = (q ⟨0, Nat.one_pos⟩).val :=
  DotDims.rhsIdx_val_of_single (d := dot_S256x2048_S256x256_S2048x256_0_1_1_0_n_n) (cr := 1) rfl i q

theorem denseD_lhsN (i : S2048x256.Idx) (q : dot_S256x2048_S256x256_S2048x256_0_1_1_0_n_n.contr.Idx) :
    (dot_S256x2048_S256x256_S2048x256_0_1_1_0_n_n.lhsIdx i q 1).val = (i 0).val := by
  unfold DotDims.lhsIdx
  rw [dif_neg (show ¬ (1 : Fin S256x2048.rank) ∈ dot_S256x2048_S256x256_S2048x256_0_1_1_0_n_n.lhsBatch by decide),
    dif_pos (show (1 : Fin S256x2048.rank) ∈ dot_S256x2048_S256x256_S2048x256_0_1_1_0_n_n.lhsNonContracting by decide)]
  rfl

theorem denseD_rhsN (i : S2048x256.Idx) (q : dot_S256x2048_S256x256_S2048x256_0_1_1_0_n_n.contr.Idx) :
    (dot_S256x2048_S256x256_S2048x256_0_1_1_0_n_n.rhsIdx i q 0).val = (i 1).val := by
  unfold DotDims.rhsIdx
  rw [dif_neg (show ¬ (0 : Fin S256x256.rank) ∈ dot_S256x2048_S256x256_S2048x256_0_1_1_0_n_n.rhsBatch by decide),
    dif_pos (show (0 : Fin S256x256.rank) ∈ dot_S256x2048_S256x256_S2048x256_0_1_1_0_n_n.rhsNonContracting by decide)]
  rfl

theorem denseD_lhs (p : Fin 2048) (c : Fin 256) (q : dot_S256x2048_S256x256_S2048x256_0_1_1_0_n_n.contr.Idx) (k : Fin 256)
    (hk : (q ⟨0, Nat.one_pos⟩).val = k.val) :
    dot_S256x2048_S256x256_S2048x256_0_1_1_0_n_n.lhsIdx (ix2 p c) q = ix2 k p :=
  funext fun a => Fin.ext (by
    match a with
    | ⟨0, _⟩ => exact (denseD_lhsC (ix2 p c) q).trans hk
    | ⟨1, _⟩ => exact denseD_lhsN (ix2 p c) q)

theorem denseD_rhs (p : Fin 2048) (c : Fin 256) (q : dot_S256x2048_S256x256_S2048x256_0_1_1_0_n_n.contr.Idx) (k : Fin 256)
    (hk : (q ⟨0, Nat.one_pos⟩).val = k.val) :
    dot_S256x2048_S256x256_S2048x256_0_1_1_0_n_n.rhsIdx (ix2 p c) q = ix2 c k :=
  funext fun a => Fin.ext (by
    match a with
    | ⟨1, _⟩ => exact (denseD_rhsC (ix2 p c) q).trans hk
    | ⟨0, _⟩ => exact denseD_rhsN (ix2 p c) q)

/-! ### Adjacency rows against the dense layer's columns -/

theorem edgeD_lhsC (i : S2048x256.Idx) (q : dot_S2048x2048_S2048x256_S2048x256_1_0_0_1_n_n.contr.Idx) :
    (dot_S2048x2048_S2048x256_S2048x256_1_0_0_1_n_n.lhsIdx i q 1).val = (q ⟨0, Nat.one_pos⟩).val :=
  DotDims.lhsIdx_val_of_single (d := dot_S2048x2048_S2048x256_S2048x256_1_0_0_1_n_n) (cl := 1) rfl i q

theorem edgeD_rhsC (i : S2048x256.Idx) (q : dot_S2048x2048_S2048x256_S2048x256_1_0_0_1_n_n.contr.Idx) :
    (dot_S2048x2048_S2048x256_S2048x256_1_0_0_1_n_n.rhsIdx i q 0).val = (q ⟨0, Nat.one_pos⟩).val :=
  DotDims.rhsIdx_val_of_single (d := dot_S2048x2048_S2048x256_S2048x256_1_0_0_1_n_n) (cr := 0) rfl i q

theorem edgeD_lhsN (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬ (0 : Fin S2048x2048.rank) ∈ dot_S2048x2048_S2048x256_S2048x256_1_0_0_1_n_n.lhsBatch by decide),
    dif_pos (show (0 : Fin S2048x2048.rank) ∈ dot_S2048x2048_S2048x256_S2048x256_1_0_0_1_n_n.lhsNonContracting by decide)]
  rfl

theorem edgeD_rhsN (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬ (1 : Fin S2048x256.rank) ∈ dot_S2048x2048_S2048x256_S2048x256_1_0_0_1_n_n.rhsBatch by decide),
    dif_pos (show (1 : Fin S2048x256.rank) ∈ dot_S2048x2048_S2048x256_S2048x256_1_0_0_1_n_n.rhsNonContracting by decide)]
  rfl

theorem edgeD_lhs (p : Fin 2048) (c : Fin 256) (q : dot_S2048x2048_S2048x256_S2048x256_1_0_0_1_n_n.contr.Idx) (k : Fin 2048)
    (hk : (q ⟨0, Nat.one_pos⟩).val = k.val) :
    dot_S2048x2048_S2048x256_S2048x256_1_0_0_1_n_n.lhsIdx (ix2 p c) q = ix2 p k :=
  funext fun a => Fin.ext (by
    match a with
    | ⟨1, _⟩ => exact (edgeD_lhsC (ix2 p c) q).trans hk
    | ⟨0, _⟩ => exact edgeD_lhsN (ix2 p c) q)

theorem edgeD_rhs (p : Fin 2048) (c : Fin 256) (q : dot_S2048x2048_S2048x256_S2048x256_1_0_0_1_n_n.contr.Idx) (k : Fin 2048)
    (hk : (q ⟨0, Nat.one_pos⟩).val = k.val) :
    dot_S2048x2048_S2048x256_S2048x256_1_0_0_1_n_n.rhsIdx (ix2 p c) q = ix2 k c :=
  funext fun a => Fin.ext (by
    match a with
    | ⟨0, _⟩ => exact (edgeD_rhsC (ix2 p c) q).trans hk
    | ⟨1, _⟩ => exact edgeD_rhsN (ix2 p c) q)

/-! ### Edge-average columns against adjacency columns -/

theorem nodeD_lhsC (i : S256x2048.Idx) (q : dot_S2048x256_S2048x2048_S256x2048_0_0_1_1_n_n.contr.Idx) :
    (dot_S2048x256_S2048x2048_S256x2048_0_0_1_1_n_n.lhsIdx i q 0).val = (q ⟨0, Nat.one_pos⟩).val :=
  DotDims.lhsIdx_val_of_single (d := dot_S2048x256_S2048x2048_S256x2048_0_0_1_1_n_n) (cl := 0) rfl i q

theorem nodeD_rhsC (i : S256x2048.Idx) (q : dot_S2048x256_S2048x2048_S256x2048_0_0_1_1_n_n.contr.Idx) :
    (dot_S2048x256_S2048x2048_S256x2048_0_0_1_1_n_n.rhsIdx i q 0).val = (q ⟨0, Nat.one_pos⟩).val :=
  DotDims.rhsIdx_val_of_single (d := dot_S2048x256_S2048x2048_S256x2048_0_0_1_1_n_n) (cr := 0) rfl i q

theorem nodeD_lhsN (i : S256x2048.Idx) (q : dot_S2048x256_S2048x2048_S256x2048_0_0_1_1_n_n.contr.Idx) :
    (dot_S2048x256_S2048x2048_S256x2048_0_0_1_1_n_n.lhsIdx i q 1).val = (i 0).val := by
  unfold DotDims.lhsIdx
  rw [dif_neg (show ¬ (1 : Fin S2048x256.rank) ∈ dot_S2048x256_S2048x2048_S256x2048_0_0_1_1_n_n.lhsBatch by decide),
    dif_pos (show (1 : Fin S2048x256.rank) ∈ dot_S2048x256_S2048x2048_S256x2048_0_0_1_1_n_n.lhsNonContracting by decide)]
  rfl

theorem nodeD_rhsN (i : S256x2048.Idx) (q : dot_S2048x256_S2048x2048_S256x2048_0_0_1_1_n_n.contr.Idx) :
    (dot_S2048x256_S2048x2048_S256x2048_0_0_1_1_n_n.rhsIdx i q 1).val = (i 1).val := by
  unfold DotDims.rhsIdx
  rw [dif_neg (show ¬ (1 : Fin S2048x2048.rank) ∈ dot_S2048x256_S2048x2048_S256x2048_0_0_1_1_n_n.rhsBatch by decide),
    dif_pos (show (1 : Fin S2048x2048.rank) ∈ dot_S2048x256_S2048x2048_S256x2048_0_0_1_1_n_n.rhsNonContracting by decide)]
  rfl

theorem nodeD_lhs (p : Fin 256) (c : Fin 2048) (q : dot_S2048x256_S2048x2048_S256x2048_0_0_1_1_n_n.contr.Idx) (k : Fin 2048)
    (hk : (q ⟨0, Nat.one_pos⟩).val = k.val) :
    dot_S2048x256_S2048x2048_S256x2048_0_0_1_1_n_n.lhsIdx (ix2 p c) q = ix2 k p :=
  funext fun a => Fin.ext (by
    match a with
    | ⟨0, _⟩ => exact (nodeD_lhsC (ix2 p c) q).trans hk
    | ⟨1, _⟩ => exact nodeD_lhsN (ix2 p c) q)

theorem nodeD_rhs (p : Fin 256) (c : Fin 2048) (q : dot_S2048x256_S2048x2048_S256x2048_0_0_1_1_n_n.contr.Idx) (k : Fin 2048)
    (hk : (q ⟨0, Nat.one_pos⟩).val = k.val) :
    dot_S2048x256_S2048x2048_S256x2048_0_0_1_1_n_n.rhsIdx (ix2 p c) q = ix2 k c :=
  funext fun a => Fin.ext (by
    match a with
    | ⟨0, _⟩ => exact (nodeD_rhsC (ix2 p c) q).trans hk
    | ⟨1, _⟩ => exact nodeD_rhsN (ix2 p c) q)

/-! ### The products at an entry -/

/-- The tile's columns against the block's columns: entry (i, j) sums over the channels. -/
theorem mm_gram (lhs : FVec Ideal S256x256 .f32) (rhs : FVec Ideal S256x2048 .f32) (i : Fin 256) (j : Fin 2048) :
    matmul dot_S256x256_S256x2048_S256x2048_0_0_1_1_n_n (some .fp32) lhs rhs (constant S256x2048 .f32 0x00000000#32) (ix2 i j)
      = ∑ k : Fin 256, lhs (ix2 k i) * rhs (ix2 k j) :=
  Cert.LibMatmulEntry.matmul_zero_entry dot_S256x256_S256x2048_S256x2048_0_0_1_1_n_n (some .fp32) rfl rfl (fun p k => ix2 k p) (fun c k => ix2 k c)
    gramD_lhs gramD_rhs lhs rhs i j

/-- The block's columns against the weight's rows: entry (d, o) sums over the input channels. -/
theorem mm_dense (lhs : FVec Ideal S256x2048 .bf16) (rhs : FVec Ideal S256x256 .bf16) (d : Fin 2048) (o : Fin 256) :
    matmul dot_S256x2048_S256x256_S2048x256_0_1_1_0_n_n none lhs rhs (constant S2048x256 .f32 0x00000000#32) (ix2 d o)
      = ∑ k : Fin 256, lhs (ix2 k d) * rhs (ix2 o k) :=
  Cert.LibMatmulEntry.matmul_zero_entry dot_S256x2048_S256x256_S2048x256_0_1_1_0_n_n none rfl rfl (fun p k => ix2 k p) (fun c k => ix2 c k)
    denseD_lhs denseD_rhs lhs rhs d o

/-- The adjacency's rows against the dense layer's columns: entry (d, o) sums over the nodes. -/
theorem mm_edge (lhs : FVec Ideal S2048x2048 .bf16) (rhs : FVec Ideal S2048x256 .bf16) (d : Fin 2048) (o : Fin 256) :
    matmul dot_S2048x2048_S2048x256_S2048x256_1_0_0_1_n_n none lhs rhs (constant S2048x256 .f32 0x00000000#32) (ix2 d o)
      = ∑ k : Fin 2048, lhs (ix2 d k) * rhs (ix2 k o) :=
  Cert.LibMatmulEntry.matmul_zero_entry dot_S2048x2048_S2048x256_S2048x256_1_0_0_1_n_n none rfl rfl (fun p k => ix2 p k) (fun c k => ix2 k c)
    edgeD_lhs edgeD_rhs lhs rhs d o

/-- The edge averages' columns against the adjacency's columns: entry (c, n) sums over the edges. -/
theorem mm_node (lhs : FVec Ideal S2048x256 .bf16) (rhs : FVec Ideal S2048x2048 .bf16) (c : Fin 256) (n : Fin 2048) :
    matmul dot_S2048x256_S2048x2048_S256x2048_0_0_1_1_n_n none lhs rhs (constant S256x2048 .f32 0x00000000#32) (ix2 c n)
      = ∑ k : Fin 2048, lhs (ix2 k c) * rhs (ix2 k n) :=
  Cert.LibMatmulEntry.matmul_zero_entry dot_S2048x256_S2048x2048_S256x2048_0_0_1_1_n_n none rfl rfl (fun p k => ix2 k p) (fun c k => ix2 k c)
    nodeD_lhs nodeD_rhs lhs rhs c n

/-! ## The payloads at an index -/

/-- The block with its unit axis dropped. -/
theorem pay2_apply (v0 : Vec Ideal S1x256x2048 .f32) (c : Fin 256) (d : Fin 2048) :
    k0_pay2 (F := Ideal) v0 (ix2 c d) = v0 (ix3 (0 : Fin 1) c d) := by
  unfold k0_pay2
  exact cast_block v0 c d

/-- A tile's adjacency entry: row i of the tile is node T (the tile's rows are columns T of the block). -/
theorem pay4_apply (v0 : Vec Ideal S1x256x2048 .f32) (v67 : Vec Ideal S1x256x256 .f32) (T : Fin 2048) (i : Fin 256) (j : Fin 2048)
    (hT : ∀ c : Fin 256, v67 (ix3 (0 : Fin 1) c i) = v0 (ix3 (0 : Fin 1) c T)) :
    k0_pay4 (F := Ideal) v0 v67 (ix2 i j) = adj (Xof v0) T j := by
  unfold k0_pay4
  simp only [sitofp_apply, extui_apply, cmpf_apply, subf_apply, addf_apply, mulf_apply, broadcast_apply,
    bc_col_256x2048, bc_row_256x2048, tr_row256, cast_row256, cast_row2048, sum_rows_256x256, sum_rows_256x2048,
    mm_gram, cast_tile, pay2_apply, hT, Ideal.ofBits_def, lt_word]
  rfl

/-- The stored tile is the adjacency tile: narrowing is the identity at the extended reals. -/
theorem pay5_apply (v0 : Vec Ideal S1x256x2048 .f32) (v67 : Vec Ideal S1x256x256 .f32) (i : Fin 256) (j : Fin 2048) :
    k0_pay5 (F := Ideal) v0 v67 (ix2 i j) = k0_pay4 (F := Ideal) v0 v67 (ix2 i j) := by
  unfold k0_pay5
  simp only [shapeCast_self, truncf_apply]

/-- The degree accumulated over one tile: the carried row plus the tile's column sums. -/
theorem pay6_apply (v0 : Vec Ideal S1x256x2048 .f32) (acc : FVec Ideal S1x2048 .f32) (v67 : Vec Ideal S1x256x256 .f32) (u : Fin 1) (j : Fin 2048) :
    k0_pay6 (F := Ideal) v0 acc v67 (ix2 u j) = acc (ix2 u j) + ∑ i : Fin 256, k0_pay4 (F := Ideal) v0 v67 (ix2 i j) := by
  unfold k0_pay6
  simp only [addf_apply, cast_row2048, sum_rows_256x2048]

/-- The residual: the dense layer averaged over the neighbours twice, plus the block. -/
theorem pay7_apply (v0 : Vec Ideal S1x256x2048 .f32) (v7 : FVec Ideal S1x2048 .f32) (v16 : Vec Ideal S256x256 .f32) (v19 : Vec Ideal S256 .f32)
    (v24 : Vec Ideal S2048x2048 .bf16) (c : Fin 256) (n : Fin 2048)
    (h7 : ∀ j : Fin 2048, v7 (ix2 (0 : Fin 1) j) = deg (Xof v0) j)
    (h24 : ∀ i j : Fin 2048, v24 (ix2 i j) = adj (Xof v0) i j) :
    k0_pay7 (F := Ideal) v0 v7 v16 v19 v24 (ix2 c n) = resid (Xof v0) (Wof v16) (Bof v19) c n := by
  unfold k0_pay7
  simp only [addf_apply, mulf_apply, divf_apply, select_apply, cmpf_apply, broadcast_apply, truncf_apply,
    bc_row_256x2048, bc_col_2048x256, bc_row_2048x256, tr_row2048, cast_row256,
    mm_node, mm_edge, mm_dense, pay2_apply, h7, h24, Ideal.ofBits_def, recip_word]
  rfl

/-- A channel's mean of the residual. -/
theorem pay8_apply (v0 : Vec Ideal S1x256x2048 .f32) (v7 : FVec Ideal S1x2048 .f32) (v16 : Vec Ideal S256x256 .f32) (v19 : Vec Ideal S256 .f32)
    (v24 : Vec Ideal S2048x2048 .bf16) (c : Fin 256) (u : Fin 1)
    (h7 : ∀ j : Fin 2048, v7 (ix2 (0 : Fin 1) j) = deg (Xof v0) j)
    (h24 : ∀ i j : Fin 2048, v24 (ix2 i j) = adj (Xof v0) i j) :
    k0_pay8 (F := Ideal) v0 v7 v16 v19 v24 (ix2 c u) = mean (resid (Xof v0) (Wof v16) (Bof v19)) c := by
  unfold k0_pay8
  simp only [divf_apply, broadcast_apply, cast_col256, sum_cols_256x2048, pay7_apply v0 v7 v16 v19 v24 c _ h7 h24,
    Ideal.ofBits_def]
  rfl

/-- The output: the residual normalised over the nodes, scaled, shifted and activated. -/
theorem pay1_apply (v32 : FVec Ideal S256x2048 .f32) (v36 : FVec Ideal S256x1 .f32) (v51 v55 : Vec Ideal S2048 .f32)
    (Y : Fin 256 → Fin 2048 → EReal) (h32 : ∀ (c : Fin 256) (n : Fin 2048), v32 (ix2 c n) = Y c n)
    (h36 : ∀ c : Fin 256, v36 (ix2 c (0 : Fin 1)) = mean Y c) (u : Fin 1) (c : Fin 256) (n : Fin 2048) :
    k0_pay1 (F := Ideal) v32 v36 v51 v55 (ix3 u c n) = out Y (Vof v51) (Vof v55) c n := by
  unfold k0_pay1
  simp only [cast_out, mulf_apply, addf_apply, subf_apply, divf_apply, logistic_apply, rsqrt_apply, broadcast_apply,
    bc_col_256x2048, bc_row_256x2048, cast_row2048, cast_col256, sum_cols_256x2048, h32, h36, Ideal.ofBits_def]
  rfl

end Cert.Hyper.Ker
end
-- ==== Proof.LibBlockSums.lean ====
import Mathlib.Algebra.BigOperators.Fin
import Mathlib.Algebra.BigOperators.Intervals
import Mathlib.Logic.Equiv.Fin.Basic
import Mathlib.Data.Fintype.BigOperators

/-!
# A sum taken block by block, accumulated in order from zero

A family `f` over `Fin n` is cut into consecutive blocks of `bs` terms. `blockSum bs f k` is the sum of
block `k` (the terms at positions `bs * k`, …, `bs * k + bs - 1`; a position past the end contributes `0`),
and `runSum bs f k` is what an accumulator holds after block `k` when it starts from zero and adds one block
at a time: `((0 + B₀) + B₁) + ⋯ + B_k`. In an additive commutative monoid the order and the grouping do not
matter: after the last of `nb` blocks of a family over `Fin (nb * bs)` the accumulator holds the whole sum.
-/

namespace BlockSums

variable {M : Type*} [AddCommMonoid M]

/-- The sum of block `k`: the `bs` terms starting at position `bs * k`. -/
def blockSum {n : ℕ} (bs : ℕ) (f : Fin n → M) (k : ℕ) : M :=
  ∑ j : Fin bs, if h : j.val + bs * k < n then f ⟨j.val + bs * k, h⟩ else 0

/-- The accumulator after block `k`: zero, then one block added at a time, in order. -/
def runSum {n : ℕ} (bs : ℕ) (f : Fin n → M) : ℕ → M
  | 0 => 0 + blockSum bs f 0
  | k + 1 => runSum bs f k + blockSum bs f (k + 1)

theorem runSum_zero {n : ℕ} (bs : ℕ) (f : Fin n → M) : runSum bs f 0 = 0 + blockSum bs f 0 := rfl

theorem runSum_succ {n : ℕ} (bs : ℕ) (f : Fin n → M) (k : ℕ) :
    runSum bs f (k + 1) = runSum bs f k + blockSum bs f (k + 1) := rfl

/-- The accumulator after block `k` is the sum of the blocks `0, …, k`. -/
theorem runSum_eq_sum_range {n : ℕ} (bs : ℕ) (f : Fin n → M) (k : ℕ) :
    runSum bs f k = ∑ p ∈ Finset.range (k + 1), blockSum bs f p := by
  induction k with
  | zero => rw [runSum_zero, zero_add, Finset.sum_range_one]
  | succ k ih => rw [runSum_succ, ih, Finset.sum_range_succ _ (k + 1)]

/-- After the last of `nb` blocks of `bs` terms the accumulator holds the sum of the whole family. -/
theorem runSum_last (nb bs : ℕ) (hnb : 0 < nb) (f : Fin (nb * bs) → M) :
    runSum bs f (nb - 1) = ∑ i, f i := by
  rw [runSum_eq_sum_range, Nat.sub_add_cancel hnb, Finset.sum_range (fun p => blockSum bs f p),
    ← Equiv.sum_comp (finProdFinEquiv (m := nb) (n := bs)) f, Fintype.sum_prod_type]
  refine Finset.sum_congr rfl fun p _ => ?_
  unfold blockSum
  refine Finset.sum_congr rfl fun j _ => ?_
  have h : j.val + bs * p.val < nb * bs := (finProdFinEquiv (p, j)).isLt
  rw [dif_pos h]
  rfl

/-- Four blocks of 1024 terms: after block 3 the accumulator holds the sum over all 4096 positions. -/
theorem runSum_4x1024 (f : Fin 4096 → M) : runSum 1024 f 3 = ∑ i, f i :=
  runSum_last 4 1024 (by decide) f

/-- Inside the range, a block's term at `j` is the family's term at `bs * k + j`. -/
theorem blockSum_eq {n : ℕ} (bs : ℕ) (f : Fin n → M) (k : ℕ) (hk : bs * k + bs ≤ n) :
    blockSum bs f k = ∑ j : Fin bs, f ⟨j.val + bs * k, by have := j.isLt; omega⟩ := by
  unfold blockSum
  refine Finset.sum_congr rfl fun j _ => ?_
  have h : j.val + bs * k < n := by have := j.isLt; omega
  rw [dif_pos h]

end BlockSums
-- ==== Proof.KLoop.lean ====
/-
  The counted loop of the kernel body, trip by trip.

  The loop walks the eight row blocks of the 2048 × 2048 adjacency matrix of one batch. Trip `k` loads columns
  `256 k … 256 k + 255` of the feature block, decides the adjacency of those 256 nodes against all 2048 nodes, stores
  the 256 × 2048 result as rows `256 k …` of the scratch matrix, and adds the result's column sums to the row it carries.
  So before trip `k` the carried row holds the column sums of the first `k` row blocks, and the stored pieces are
  blocks of the one adjacency matrix that cover its first `256 k` rows: by induction on `k`.
-/
import proofs.«151105_j32813550141848_2_alg».proof.Proof.Gen.KernelIdeal.Loops
import proofs.«151105_j32813550141848_2_alg».proof.Proof.KPay
import proofs.«151105_j32813550141848_2_alg».proof.Proof.LibBlockSums
import Idealize.ShloMosaic.Lib.Pipeline.Value

noncomputable section

namespace Cert.Hyper.Ker

open Cert.KernelIdeal Cert.KernelIdeal.Gen Cert.KernelIdeal.Facts₀ Cert.KernelIdeal.Facts
open Idealize.ShloMosaic Idealize.ShloMosaic.TcCoe Idealize.ShloMosaic.ValueIdx Idealize.SL.Sem Cert.Hyper BlockSums

/-- The loop makes eight trips. -/
theorem trips_eq : k0_t1_loop.trips = 8 := by decide +kernel

section Trips

variable (𝒱 : Variants) (c : Dev nD) (bd : Option 𝒱.V) (i : grid0.Coords)
  (arg1 : Memref sig .tc .vmem S1x256x2048 .f32) (harg1 : arg1.IsWhole) (arg2 : Memref sig .tc .vmem S256x256 .f32) (harg2 : arg2.IsWhole)
  (arg3 : Memref sig .tc .vmem S256 .f32) (harg3 : arg3.IsWhole) (arg4 : Memref sig .tc .vmem S2048 .f32) (harg4 : arg4.IsWhole)
  (arg5 : Memref sig .tc .vmem S2048 .f32) (harg5 : arg5.IsWhole) (arg6 : Memref sig .tc .vmem S1x256x2048 .f32) (harg6 : arg6.IsWhole)
  (arg7 : Memref sig .tc .vmem S2048x2048 .bf16) (harg7 : arg7.IsWhole)
  (v0 : Vec Ideal S1x256x2048 .f32) (X_arg1 : BufTy.Contents (Elt Ideal) arg1.view.ty) (init : FVec Ideal S1x2048 .f32)

/-- What trip `k` loads: the 256 columns of the block that start at column `256 k`. -/
abbrev tile (k : Fin k0_t1_loop.trips) : Vec Ideal S1x256x256 .f32 :=
  View.readAt (Elt Ideal) arg1.view (Rect.unit (s := S1x256x2048) (k0_off1 k) S1x256x256.size (Gen.k0_off1_inb k)).toLoadRect X_arg1

/-- One trip adds the tile's column sums to the carried row … -/
theorem tripR_eq (k : Fin k0_t1_loop.trips) (acc : FVec Ideal S1x2048 .f32) :
    tripR_k0_t1 (F := Ideal) 𝒱 c bd i arg1 harg1 arg2 harg2 arg3 harg3 arg4 harg4 arg5 harg5 arg6 harg6 arg7 harg7 v0 X_arg1 k acc
      = k0_pay6 (F := Ideal) v0 acc (tile arg1 X_arg1 k) := by
  unfold tripR_k0_t1 trip_k0_t1
  rfl

/-- … and stores the tile's adjacency rows at rows `256 k … 256 k + 255` of the scratch matrix. -/
theorem tripL_eq (k : Fin k0_t1_loop.trips) (acc : FVec Ideal S1x2048 .f32) :
    tripL_k0_t1 (F := Ideal) 𝒱 c bd i arg1 harg1 arg2 harg2 arg3 harg3 arg4 harg4 arg5 harg5 arg6 harg6 arg7 harg7 v0 X_arg1 k acc
      = [⟨Rect.unit (s := S2048x2048) (k0_off2 k) S256x2048.size (Gen.k0_off2_inb k), k0_pay5 (F := Ideal) v0 (tile arg1 X_arg1 k)⟩] := by
  unfold tripL_k0_t1 trip_k0_t1
  rfl

variable (hX : ∀ (ch : Fin 256) (d : Fin 2048), arg1.view.read (Elt Ideal) X_arg1 (ix3 (0 : Fin 1) ch d) = v0 (ix3 (0 : Fin 1) ch d))
include hX

/-- Row `r` of trip `k`'s tile is node `r + 256 k` of the block. -/
theorem tile_apply (k : Fin k0_t1_loop.trips) (ch : Fin 256) (r : Fin 256) (hT : r.val + 256 * k.val < 2048) :
    tile arg1 X_arg1 k (ix3 (0 : Fin 1) ch r) = v0 (ix3 (0 : Fin 1) ch ⟨r.val + 256 * k.val, hT⟩) := by
  rw [← hX]
  show arg1.view.read (Elt Ideal) X_arg1 ((Rect.unit (s := S1x256x2048) (k0_off1 k) S1x256x256.size (Gen.k0_off1_inb k)).toLoadRect.idx (ix3 (0 : Fin 1) ch r)) = _
  refine congrArg _ (funext fun a => Fin.ext ?_)
  have ho := k0_off1_eq k
  match a with
  | ⟨0, _⟩ => show k0_off1 k 0 + 1 * 0 = 0; rw [ho]; rfl
  | ⟨1, _⟩ => show k0_off1 k 1 + 1 * ch.val = ch.val; rw [ho]; show 0 + 1 * ch.val = ch.val; omega
  | ⟨2, _⟩ => show k0_off1 k 2 + 1 * r.val = r.val + 256 * k.val; rw [ho]; show 256 * k.val + 1 * r.val = r.val + 256 * k.val; omega

/-- The adjacency matrix of the block as a function of the scratch matrix's index. -/
abbrev adjAt : S2048x2048.Idx → Elt Ideal .bf16 :=
  fun y => adj (Xof v0) ⟨(y 0).val, (y 0).isLt⟩ ⟨(y 1).val, (y 1).isLt⟩

/-- The state before trip `k`. -/
abbrev stAt (k : ℕ) :=
  st_k0_t1 (F := Ideal) 𝒱 c bd i arg1 harg1 arg2 harg2 arg3 harg3 arg4 harg4 arg5 harg5 arg6 harg6 arg7 harg7 v0 X_arg1 init k

/-- Before trip `k` the carried row holds, at node `j`, the initial value plus the column sums of the first `k` row
    blocks of the adjacency matrix. -/
theorem carried (k : ℕ) (hk : k ≤ 8) (j : Fin 2048) :
    (stAt 𝒱 c bd i arg1 harg1 arg2 harg2 arg3 harg3 arg4 harg4 arg5 harg5 arg6 harg6 arg7 harg7 v0 X_arg1 init k).1 (ix2 (0 : Fin 1) j)
      = init (ix2 (0 : Fin 1) j) + ∑ p ∈ Finset.range k, blockSum 256 (fun r : Fin 2048 => adj (Xof v0) r j) p := by
  induction k with
  | zero => rw [Finset.range_zero, Finset.sum_empty, add_zero]; rfl
  | succ k ih =>
    have hk' : k < k0_t1_loop.trips := by rw [trips_eq]; omega
    have hs := st_k0_t1_succ (F := Ideal) 𝒱 c bd i arg1 harg1 arg2 harg2 arg3 harg3 arg4 harg4 arg5 harg5 arg6 harg6 arg7 harg7 v0 X_arg1 init ⟨k, hk'⟩
    rw [show (stAt 𝒱 c bd i arg1 harg1 arg2 harg2 arg3 harg3 arg4 harg4 arg5 harg5 arg6 harg6 arg7 harg7 v0 X_arg1 init (k + 1)).1 = _ from
      (congrArg Prod.fst hs).trans (tripR_eq 𝒱 c bd i arg1 harg1 arg2 harg2 arg3 harg3 arg4 harg4 arg5 harg5 arg6 harg6 arg7 harg7 v0 X_arg1 ⟨k, hk'⟩ _)]
    rw [pay6_apply]
    rw [show (st_k0_t1 (F := Ideal) 𝒱 c bd i arg1 harg1 arg2 harg2 arg3 harg3 arg4 harg4 arg5 harg5 arg6 harg6 arg7 harg7 v0 X_arg1 init k).1 (ix2 (0 : Fin 1) j) = _ from ih (by omega),
      Finset.sum_range_succ, add_assoc]
    refine congrArg _ (congrArg _ ?_)
    rw [blockSum_eq 256 _ k (by omega)]
    refine Finset.sum_congr rfl fun r _ => ?_
    exact pay4_apply v0 _ ⟨r.val + 256 * k, by have := r.isLt; omega⟩ r j fun ch =>
      tile_apply arg1 v0 X_arg1 hX ⟨k, hk'⟩ ch r _

/-- Every piece stored before trip `k` is a block of the one adjacency matrix. -/
theorem pieces (k : ℕ) (hk : k ≤ 8) :
    ∀ p ∈ (stAt 𝒱 c bd i arg1 harg1 arg2 harg2 arg3 harg3 arg4 harg4 arg5 harg5 arg6 harg6 arg7 harg7 v0 X_arg1 init k).2,
      ∀ x : p.1.shape.Idx, p.2 x = adjAt v0 (p.1.emb x) := by
  induction k with
  | zero => intro p hp; exact absurd hp List.not_mem_nil
  | succ k ih =>
    have hk' : k < k0_t1_loop.trips := by rw [trips_eq]; omega
    have hs := st_k0_t1_succ (F := Ideal) 𝒱 c bd i arg1 harg1 arg2 harg2 arg3 harg3 arg4 harg4 arg5 harg5 arg6 harg6 arg7 harg7 v0 X_arg1 init ⟨k, hk'⟩
    intro p hp
    rw [show (stAt 𝒱 c bd i arg1 harg1 arg2 harg2 arg3 harg3 arg4 harg4 arg5 harg5 arg6 harg6 arg7 harg7 v0 X_arg1 init (k + 1)).2 = _ from
      (congrArg Prod.snd hs).trans (congrArg (· ++ _) (tripL_eq 𝒱 c bd i arg1 harg1 arg2 harg2 arg3 harg3 arg4 harg4 arg5 harg5 arg6 harg6 arg7 harg7 v0 X_arg1 ⟨k, hk'⟩ _)),
      List.singleton_append, List.mem_cons] at hp
    rcases hp with rfl | hp
    · intro x
      obtain ⟨r, b, rfl⟩ : ∃ (r : Fin 256) (b : Fin 2048), x = ix2 r b := ⟨x 0, x 1, eq_ix2 x⟩
      show k0_pay5 (F := Ideal) v0 (tile arg1 X_arg1 ⟨k, hk'⟩) (ix2 r b) = _
      rw [pay5_apply, pay4_apply v0 _ ⟨r.val + 256 * k, by have := r.isLt; omega⟩ r b fun ch =>
        tile_apply arg1 v0 X_arg1 hX ⟨k, hk'⟩ ch r _]
      show adj (Xof v0) _ _ = adj (Xof v0) _ _
      congr 1
      · refine Fin.ext ?_
        have ho : k0_off2 ⟨k, hk'⟩ 0 = 256 * k := congrFun (k0_off2_eq ⟨k, hk'⟩) 0
        show r.val + 256 * k = k0_off2 ⟨k, hk'⟩ 0 + 1 * r.val
        rw [ho]; omega
      · refine Fin.ext ?_
        have ho : k0_off2 ⟨k, hk'⟩ 1 = 0 := congrFun (k0_off2_eq ⟨k, hk'⟩) 1
        show b.val = k0_off2 ⟨k, hk'⟩ 1 + 1 * b.val
        rw [ho]; omega
    · exact ih (by omega) p hp

/-- The pieces stored before trip `k` cover the first `256 k` rows. -/
theorem covered (k : ℕ) (hk : k ≤ 8) (y : S2048x2048.Idx) (hy : (y 0).val < 256 * k) :
    ∃ p ∈ (stAt 𝒱 c bd i arg1 harg1 arg2 harg2 arg3 harg3 arg4 harg4 arg5 harg5 arg6 harg6 arg7 harg7 v0 X_arg1 init k).2, y ∈ p.1.set := by
  induction k with
  | zero => omega
  | succ k ih =>
    have hk' : k < k0_t1_loop.trips := by rw [trips_eq]; omega
    have hs := st_k0_t1_succ (F := Ideal) 𝒱 c bd i arg1 harg1 arg2 harg2 arg3 harg3 arg4 harg4 arg5 harg5 arg6 harg6 arg7 harg7 v0 X_arg1 init ⟨k, hk'⟩
    rw [show (stAt 𝒱 c bd i arg1 harg1 arg2 harg2 arg3 harg3 arg4 harg4 arg5 harg5 arg6 harg6 arg7 harg7 v0 X_arg1 init (k + 1)).2 = _ from
      (congrArg Prod.snd hs).trans (congrArg (· ++ _) (tripL_eq 𝒱 c bd i arg1 harg1 arg2 harg2 arg3 harg3 arg4 harg4 arg5 harg5 arg6 harg6 arg7 harg7 v0 X_arg1 ⟨k, hk'⟩ _)),
      List.singleton_append]
    by_cases hlt : (y 0).val < 256 * k
    · obtain ⟨p, hp, hm⟩ := ih (by omega) hlt
      exact ⟨p, List.mem_cons_of_mem _ hp, hm⟩
    · refine ⟨_, List.mem_cons_self, ?_⟩
      rw [Rect.mem_set_unit, k0_off2_eq]
      intro a
      match a with
      | ⟨0, _⟩ => show 256 * k ≤ (y 0).val ∧ (y 0).val < 256 * k + 256; omega
      | ⟨1, _⟩ => show 0 ≤ (y 1).val ∧ (y 1).val < 0 + 2048; have h1 : (y 1).val < 2048 := (y 1).isLt; omega

/-- After the last trip the carried row is the degree of every node, when the loop starts from zero: the eight block
    sums, added in order, are the whole column sum. -/
theorem carried_all (j : Fin 2048) (hinit : init (ix2 (0 : Fin 1) j) = 0) :
    (stAt 𝒱 c bd i arg1 harg1 arg2 harg2 arg3 harg3 arg4 harg4 arg5 harg5 arg6 harg6 arg7 harg7 v0 X_arg1 init 8).1 (ix2 (0 : Fin 1) j)
      = deg (Xof v0) j := by
  rw [carried 𝒱 c bd i arg1 harg1 arg2 harg2 arg3 harg3 arg4 harg4 arg5 harg5 arg6 harg6 arg7 harg7 v0 X_arg1 init hX 8 le_rfl j,
    hinit, zero_add]
  exact (runSum_eq_sum_range 256 (fun r : Fin 2048 => adj (Xof v0) r j) 7).symm.trans
    (runSum_last 8 256 (by decide) (fun r : Fin 2048 => adj (Xof v0) r j))

/-- After the last trip the stored pieces, read back as one array, are the adjacency matrix. -/
theorem scratch_all (y : S2048x2048.Idx) :
    View.canon (stAt 𝒱 c bd i arg1 harg1 arg2 harg2 arg3 harg3 arg4 harg4 arg5 harg5 arg6 harg6 arg7 harg7 v0 X_arg1 init 8).2 y
      = adjAt v0 y :=
  View.canon_apply_of_pieces (adjAt v0) _
    (pieces 𝒱 c bd i arg1 harg1 arg2 harg2 arg3 harg3 arg4 harg4 arg5 harg5 arg6 harg6 arg7 harg7 v0 X_arg1 init hX 8 le_rfl) y
    (covered 𝒱 c bd i arg1 harg1 arg2 harg2 arg3 harg3 arg4 harg4 arg5 harg5 arg6 harg6 arg7 harg7 v0 X_arg1 init hX 8 le_rfl y
      (by have h0 : (y 0).val < 2048 := (y 0).isLt; omega))

/-- … and every index of the scratch matrix is under one of them. -/
theorem covered_all (y : S2048x2048.Idx) :
    ∃ p ∈ (stAt 𝒱 c bd i arg1 harg1 arg2 harg2 arg3 harg3 arg4 harg4 arg5 harg5 arg6 harg6 arg7 harg7 v0 X_arg1 init 8).2, y ∈ p.1.set :=
  covered 𝒱 c bd i arg1 harg1 arg2 harg2 arg3 harg3 arg4 harg4 arg5 harg5 arg6 harg6 arg7 harg7 v0 X_arg1 init hX 8 le_rfl y
    (by have h0 : (y 0).val < 2048 := (y 0).isLt; omega)

end Trips

end Cert.Hyper.Ker

end
-- ==== Proof.KBody.lean ====
/-
  The kernel body's stored value, from its loads, at an entry.

  Given the degree row and the adjacency matrix the body finds after its loop, the value it stores at `(c, n)` is the
  layer's output entry of the block: the residual is the payload of the two averages, the channel means are its row means,
  and the stored value normalises, scales, shifts and activates that residual.
-/
import proofs.«151105_j32813550141848_2_alg».proof.Proof.KPay

noncomputable section

namespace Cert.Hyper.Ker

open Cert.KernelIdeal Cert.KernelIdeal.Gen Idealize.ShloMosaic Idealize.ShloMosaic.ValueIdx Cert.Hyper

/-- The stored block at `(c, n)`, when the carried row is the degree and the scratch matrix is the adjacency matrix. -/
theorem body_value (x0 : Vec Ideal S1x256x2048 .f32) (x1 : Vec Ideal S256x256 .f32) (x2 : Vec Ideal S256 .f32)
    (x3 x4 : Vec Ideal S2048 .f32) (dg : FVec Ideal S1x2048 .f32) (hg : Vec Ideal S2048x2048 .bf16)
    (hD : ∀ j : Fin 2048, dg (ix2 (0 : Fin 1) j) = deg (Xof x0) j)
    (hH : ∀ i j : Fin 2048, hg (ix2 i j) = adj (Xof x0) i j) (u : Fin 1) (ch : Fin 256) (n : Fin 2048) :
    k0_pay1 (F := Ideal) (k0_pay7 (F := Ideal) x0 dg x1 x2 hg) (k0_pay8 (F := Ideal) x0 dg x1 x2 hg) x3 x4 (ix3 u ch n)
      = out (resid (Xof x0) (Wof x1) (Bof x2)) (Vof x3) (Vof x4) ch n :=
  pay1_apply _ _ x3 x4 (resid (Xof x0) (Wof x1) (Bof x2))
    (fun c n => pay7_apply x0 dg x1 x2 hg c n hD hH) (fun c => pay8_apply x0 dg x1 x2 hg c (0 : Fin 1) hD hH) u ch n

end Cert.Hyper.Ker

end
-- ==== Proof.KBlocks.lean ====
/-
  What the kernel's windows hold at a grid point.

  The grid has one point per batch. At point `t` the first window's block is the slice `x[t, ·, ·]` of the first argument,
  the output window's block is the slice `[t, ·, ·]` of the result, and the four small windows hold their arrays whole at
  every point: each window's block index is `(t, 0, 0)`, resp. all zeros (decided once over the eight points), and an
  element of a block sits at block index times block size plus its coordinate inside the block.
-/
import proofs.«151105_j32813550141848_2_alg».proof.Proof.Gen.KernelIdeal.Frame.Runs
import Idealize.ShloMosaic.Lib.ValueIdx
import Idealize.ShloMosaic.Lib.Pipeline.Value

noncomputable section

namespace Cert.Hyper.Ker

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The printed index maps, decided over the grid. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-- There are eight points. -/
theorem point_lt (t : Fin cfg0.N) : t.val < 8 := lt_of_lt_of_eq t.isLt N_0

/-- The feature block of point `t` is batch `t` of the first argument. -/
theorem blk0_apply (c : Dev nD) (t : Fin cfg0.N) (ch : Fin 256) (d : Fin 2048) :
    iblk m c 0 t (ix3 (0 : Fin 1) ch d) = V m c main_arg0 (ix3 (⟨t.val, point_lt t⟩ : Fin 8) ch d) := by
  obtain ⟨e0, e1, e2, -⟩ := idx_facts t
  show V m c main_arg0 (((cfg0.win 0).blk t).view.emb (ix3 (0 : Fin 1) ch d)) = _
  refine congrArg _ (funext fun a => Fin.ext ?_)
  match a with
  | ⟨0, _⟩ => show win0_0.index t (0 : Fin 3) * 1 + 1 * 0 = t.val; omega
  | ⟨1, _⟩ => show win0_0.index t (1 : Fin 3) * 256 + 1 * ch.val = ch.val; omega
  | ⟨2, _⟩ => show win0_0.index t (2 : Fin 3) * 2048 + 1 * d.val = d.val; omega

/-- The weight window holds the weight whole. -/
theorem blk1_apply (c : Dev nD) (t : Fin cfg0.N) (o ch : Fin 256) :
    iblk m c 1 t (ix2 o ch) = V m c main_arg1 (ix2 o ch) := by
  obtain ⟨-, -, -, e0, e1, -⟩ := idx_facts t
  show V m c main_arg1 (((cfg0.win 1).blk t).view.emb (ix2 o ch)) = _
  refine congrArg _ (funext fun a => Fin.ext ?_)
  match a with
  | ⟨0, _⟩ => show win0_1.index t (0 : Fin 2) * 256 + 1 * o.val = o.val; omega
  | ⟨1, _⟩ => show win0_1.index t (1 : Fin 2) * 256 + 1 * ch.val = ch.val; omega

/-- The bias window holds the bias whole. -/
theorem blk2_apply (c : Dev nD) (t : Fin cfg0.N) (o : Fin 256) :
    iblk m c 2 t (ix1 o) = V m c main_arg2 (ix1 o) := by
  obtain ⟨-, -, -, -, -, e0, -⟩ := idx_facts t
  show V m c main_arg2 (((cfg0.win 2).blk t).view.emb (ix1 o)) = _
  refine congrArg _ (funext fun a => Fin.ext ?_)
  match a with
  | ⟨0, _⟩ => show win0_2.index t (0 : Fin 1) * 256 + 1 * o.val = o.val; omega

/-- The scale window holds the scale whole. -/
theorem blk3_apply (c : Dev nD) (t : Fin cfg0.N) (n : Fin 2048) :
    iblk m c 3 t (ix1 n) = V m c main_arg3 (ix1 n) := by
  obtain ⟨-, -, -, -, -, -, e0, -⟩ := idx_facts t
  show V m c main_arg3 (((cfg0.win 3).blk t).view.emb (ix1 n)) = _
  refine congrArg _ (funext fun a => Fin.ext ?_)
  match a with
  | ⟨0, _⟩ => show win0_3.index t (0 : Fin 1) * 2048 + 1 * n.val = n.val; omega

/-- The shift window holds the shift whole. -/
theorem blk4_apply (c : Dev nD) (t : Fin cfg0.N) (n : Fin 2048) :
    iblk m c 4 t (ix1 n) = V m c main_arg4 (ix1 n) := by
  obtain ⟨-, -, -, -, -, -, -, e0, -⟩ := idx_facts t
  show V m c main_arg4 (((cfg0.win 4).blk t).view.emb (ix1 n)) = _
  refine congrArg _ (funext fun a => Fin.ext ?_)
  match a with
  | ⟨0, _⟩ => show win0_4.index t (0 : Fin 1) * 2048 + 1 * n.val = n.val; omega

/-- The output block of point `t` sits at batch `t` of the result. -/
theorem blk5_emb (t : Fin cfg0.N) (ch : Fin 256) (n : Fin 2048) :
    ((cfg0.win 5).blk t).view.emb (ix3 (0 : Fin 1) ch n) = ix3 (⟨t.val, point_lt t⟩ : Fin 8) ch n := by
  obtain ⟨-, -, -, -, -, -, -, -, e0, e1, e2⟩ := idx_facts t
  refine funext fun a => Fin.ext ?_
  match a with
  | ⟨0, _⟩ => show win0_5.index t (0 : Fin 3) * 1 + 1 * 0 = t.val; omega
  | ⟨1, _⟩ => show win0_5.index t (1 : Fin 3) * 256 + 1 * ch.val = ch.val; omega
  | ⟨2, _⟩ => show win0_5.index t (2 : Fin 3) * 2048 + 1 * n.val = n.val; omega

/-- An index of the result is in point `t`'s block iff each coordinate is in the block's range on its axis. -/
theorem mem_blk5 (t : Fin cfg0.N) (i : S8x256x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v0).slice (win0_5.rect t)).set ↔ _
  rw [View.set_slice_whole, Rect.mem_set_unit]
  exact Iff.rfl

/-- Every index of the result is in the block of the point named by its batch coordinate. -/
theorem cover5 (i : S8x256x2048.Idx) :
    ∃ t : Fin cfg0.N, (cfg0.win 5).flush t = true ∧ i ∈ ((cfg0.win 5).blk t).view.set := by
  have h0 : (i 0).val < 8 := (i 0).isLt
  have h1 : (i 1).val < 256 := (i 1).isLt
  have h2 : (i 2).val < 2048 := (i 2).isLt
  let t : Fin cfg0.N := ⟨(i 0).val, lt_of_lt_of_eq h0 N_0.symm⟩
  obtain ⟨-, -, -, -, -, -, -, -, e0, e1, e2⟩ := idx_facts t
  have e0' : win0_5.index t (0 : Fin 3) = (i 0).val := e0
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

end Cert.Hyper.Ker

end
-- ==== Proof.Layer.lean ====
/-
  The layer as one function of the five argument arrays, index by index.

  Entry `(b, c, n)` of the result is the output entry `(c, n)` of batch `b`: the batch's feature matrix is the slice
  `x[b, ·, ·]` of the first argument; the weight, the bias, the scale and the shift are the other four arguments whole.
-/
import proofs.«151105_j32813550141848_2_alg».proof.Proof.Spec
import Idealize.ShloMosaic.Lib.ValueIdx

noncomputable section

namespace Cert.Hyper

open Idealize.ShloMosaic Idealize.ShloMosaic.ValueIdx

/-- The layer's result array as a function of the argument arrays. -/
def layer (x0 : (⟨3, ![8, 256, 2048]⟩ : Shape).Idx → EReal) (x1 : (⟨2, ![256, 256]⟩ : Shape).Idx → EReal)
    (x2 : (⟨1, ![256]⟩ : Shape).Idx → EReal) (x3 x4 : (⟨1, ![2048]⟩ : Shape).Idx → EReal) :
    (⟨3, ![8, 256, 2048]⟩ : Shape).Idx → EReal := fun i =>
  out (resid (fun c d => x0 (ix3 (⟨(i 0).val, (i 0).isLt⟩ : Fin 8) c d)) (fun o c => x1 (ix2 o c)) (fun o => x2 (ix1 o)))
    (fun n => x3 (ix1 n)) (fun n => x4 (ix1 n)) ⟨(i 1).val, (i 1).isLt⟩ ⟨(i 2).val, (i 2).isLt⟩

/-- At an index written by its coordinates. -/
theorem layer_ix3 (x0 : (⟨3, ![8, 256, 2048]⟩ : Shape).Idx → EReal) (x1 : (⟨2, ![256, 256]⟩ : Shape).Idx → EReal)
    (x2 : (⟨1, ![256]⟩ : Shape).Idx → EReal) (x3 x4 : (⟨1, ![2048]⟩ : Shape).Idx → EReal) (b : Fin 8) (c : Fin 256) (n : Fin 2048) :
    layer x0 x1 x2 x3 x4 (ix3 b c n)
      = out (resid (fun c d => x0 (ix3 b c d)) (fun o c => x1 (ix2 o c)) (fun o => x2 (ix1 o)))
          (fun n => x3 (ix1 n)) (fun n => x4 (ix1 n)) c n := rfl

/-- The two arrangements of the residual are one function. -/
theorem residT_eq_resid (X : Fin 256 → Fin 2048 → EReal) (W : Fin 256 → Fin 256 → EReal) (bias : Fin 256 → EReal) :
    residT X W bias = resid X W bias :=
  funext fun c => funext fun n => residT_eq X W bias c n

end Cert.Hyper

end
-- ==== Proof.KValue.lean ====
/-
  The kernel's result array.

  At a grid point the body stores one block; read at `(c, n)` it is the layer's output entry of the point's batch: the
  carried row the body finds after its loop is the degree of every node, the scratch matrix it loads is the adjacency
  matrix, and the rest is the payloads' arithmetic. Point `t` writes its block back to batch `t` of the result, the eight
  blocks fill the result, so after the run the result array is the layer of the five argument arrays.
-/
import proofs.«151105_j32813550141848_2_alg».proof.Proof.KernelIdealFrame
import proofs.«151105_j32813550141848_2_alg».proof.Proof.KLoop
import proofs.«151105_j32813550141848_2_alg».proof.Proof.KBody
import proofs.«151105_j32813550141848_2_alg».proof.Proof.KBlocks
import proofs.«151105_j32813550141848_2_alg».proof.Proof.Layer
import Idealize.ShloMosaic.Lib.Pipeline.Value

noncomputable section

namespace Cert.Hyper.Ker

open Cert.KernelIdeal Cert.KernelIdeal.Gen Cert.KernelIdeal.Facts₀ Cert.KernelIdeal.Facts
open Idealize.ShloMosaic Idealize.ShloMosaic.TcCoe Idealize.ShloMosaic.ValueIdx Idealize.SL.Sem Cert.Hyper
open Idealize.ShloMosaic.Pipeline (Dat)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

section Point

variable (c : Dev nD) (i : grid0.Coords)
  (arg1 : Memref sig .tc .vmem S1x256x2048 .f32) (harg1 : arg1.IsWhole) (arg2 : Memref sig .tc .vmem S256x256 .f32) (harg2 : arg2.IsWhole)
  (arg3 : Memref sig .tc .vmem S256 .f32) (harg3 : arg3.IsWhole) (arg4 : Memref sig .tc .vmem S2048 .f32) (harg4 : arg4.IsWhole)
  (arg5 : Memref sig .tc .vmem S2048 .f32) (harg5 : arg5.IsWhole) (arg6 : Memref sig .tc .vmem S1x256x2048 .f32) (harg6 : arg6.IsWhole)
  (arg7 : Memref sig .tc .vmem S2048x2048 .bf16) (harg7 : arg7.IsWhole)
  (x0 : Vec Ideal S1x256x2048 .f32) (x1 : Vec Ideal S256x256 .f32) (x2 : Vec Ideal S256 .f32) (x3 x4 : Vec Ideal S2048 .f32)

/-- A load of a whole staging buffer that holds `x0` reads `x0`. -/
theorem load_block :
    View.readAt (Elt Ideal) arg1.view (Rect.unit (s := S1x256x2048) ![0, 0, 0] S1x256x2048.size Gen.inb_S1x256x2048_S1x256x2048_0_0_0).toLoadRect
      (harg1.unread x0) = x0 := by
  rw [View.readAt_eq_ld, harg1.read_unread, View.ld_unit_zero (S := S1x256x2048) zero3]

/-- The loop starts from the zero row. -/
theorem init_zero (j : Fin 2048) : k0_pay3 (F := Ideal) (ix2 (0 : Fin 1) j) = 0 := by
  show Ideal.ofBits .f32 0x00000000#32 = 0
  exact Ideal.ofBits_zero_f32

/-- The carried row after the loop is the degree row of the block. -/
theorem degree_found (j : Fin 2048) :
    (st_k0_t1 (F := Ideal) Variants.none c none i arg1 harg1 arg2 harg2 arg3 harg3 arg4 harg4 arg5 harg5 arg6 harg6 arg7 harg7 x0 (harg1.unread x0) (k0_pay3 (F := Ideal))
        (Scf.trips k0_t1_loop.lb k0_t1_loop.ub k0_t1_loop.st)).1 (ix2 (0 : Fin 1) j) = deg (Xof x0) j := by
  rw [show Scf.trips k0_t1_loop.lb k0_t1_loop.ub k0_t1_loop.st = 8 from trips_eq]
  exact carried_all Variants.none c none i arg1 harg1 arg2 harg2 arg3 harg3 arg4 harg4 arg5 harg5 arg6 harg6 arg7 harg7 x0 (harg1.unread x0) (k0_pay3 (F := Ideal))
    (fun ch d => congrFun (harg1.read_unread x0) _) j (init_zero j)

/-- The scratch matrix as loaded after the loop is the adjacency matrix of the block. -/
theorem adjacency_found (a b : Fin 2048) :
    GenP.kernelRun0_A.sl.v24 (F := Ideal) c i arg1 harg1 arg2 harg2 arg3 harg3 arg4 harg4 arg5 harg5 arg6 harg6 arg7 harg7 x0 (arg7.view.junk : BufTy.Contents (Elt Ideal) arg7.view.ty) (ix2 a b)
      = adj (Xof x0) a b := by
  unfold GenP.kernelRun0_A.sl.v24
  rw [show Scf.trips k0_t1_loop.lb k0_t1_loop.ub k0_t1_loop.st = 8 from trips_eq, load_block arg1 harg1 x0]
  show arg7.view.read (Elt Ideal) _ ((Rect.unit (s := S2048x2048) ![0, 0] S2048x2048.size Gen.inb_S2048x2048_S2048x2048_0_0).toLoadRect.idx (ix2 a b)) = _
  rw [View.read_writes_apply_eq_canon arg7.view _ _ _
      (covered_all Variants.none c none i arg1 harg1 arg2 harg2 arg3 harg3 arg4 harg4 arg5 harg5 arg6 harg6 arg7 harg7 x0 (harg1.unread x0) (k0_pay3 (F := Ideal))
        (fun ch d => congrFun (harg1.read_unread x0) _) _),
    scratch_all Variants.none c none i arg1 harg1 arg2 harg2 arg3 harg3 arg4 harg4 arg5 harg5 arg6 harg6 arg7 harg7 x0 (harg1.unread x0) (k0_pay3 (F := Ideal))
      (fun ch d => congrFun (harg1.read_unread x0) _) _]
  show adj (Xof x0) _ _ = adj (Xof x0) a b
  congr 1
  · exact Fin.ext (show 0 + 1 * a.val = a.val by omega)
  · exact Fin.ext (show 0 + 1 * b.val = b.val by omega)

/-- The block the body stores, at `(c, n)`: the layer's output entry of the loaded blocks. -/
theorem stored_apply (u : Fin 1) (ch : Fin 256) (n : Fin 2048) :
    GenP.out0_A_5 (F := Ideal) c i arg1 harg1 arg2 harg2 arg3 harg3 arg4 harg4 arg5 harg5 arg6 harg6 arg7 harg7 x0 x1 x2 x3 x4 (ix3 u ch n)
      = out (resid (Xof x0) (Wof x1) (Bof x2)) (Vof x3) (Vof x4) ch n := by
  unfold GenP.out0_A_5
  rw [View.read_writes_eq_canon _ _ _ (GenP.cover0_A_5 c i arg1 harg1 arg2 harg2 arg3 harg3 arg4 harg4 arg5 harg5 arg6 harg6 arg7 harg7 x0 x1 x2 x3 x4)]
  unfold GenP.kernelRun0_A
  dsimp only
  rw [View.canon_unit_zero zero3]
  unfold GenP.kernelRun0_A.sl.r GenP.kernelRun0_A.sl.r_1
  simp only [View.readAt_eq_ld, harg1.read_unread, harg2.read_unread, harg3.read_unread, harg4.read_unread, harg5.read_unread,
    View.ld_unit_zero (S := S1x256x2048) zero3, View.ld_unit_zero (S := S256x256) zero2, View.ld_unit_zero (S := S256) zero1,
    View.ld_unit_zero (S := S2048) zero1]
  exact body_value x0 x1 x2 x3 x4 _ _
    (degree_found c i arg1 harg1 arg2 harg2 arg3 harg3 arg4 harg4 arg5 harg5 arg6 harg6 arg7 harg7 x0) (adjacency_found c i arg1 harg1 arg2 harg2 arg3 harg3 arg4 harg4 arg5 harg5 arg6 harg6 arg7 harg7 x0) u ch n

end Point

variable (m : (ℓ : Loc nD τ sig) → Buf (Elt Ideal) ℓ) (ρ : Dev nD → PrngReg)

/-- What point `t` writes back is block `t` of the layer of the argument arrays as the region finds them. -/
theorem flushed_eq (c : Dev nD) (t : Fin cfg0.N) :
    (GenP.dats m 0 c).flushed 5 t = ((cfg0.win 5).blk t).view.read (Elt Ideal)
      (layer (V m c main_arg0) (V m c main_arg1) (V m c main_arg2) (V m c main_arg3) (V m c main_arg4)) := by
  show (cfg0.win 5).cut (grid0.coords t) ((GenP.dats m 0 c).after 5 t) = _
  rw [GenP.after0_5]
  funext j
  obtain ⟨u, ch, n, rfl⟩ : ∃ (u : Fin 1) (ch : Fin 256) (n : Fin 2048), j = ix3 u ch n := ⟨j 0, j 1, j 2, eq_ix3 j⟩
  obtain rfl : u = 0 := Subsingleton.elim _ _
  show GenP.outsAt0 m c t (ix3 (0 : Fin 1) ch n) = layer _ _ _ _ _ (((cfg0.win 5).blk t).view.emb (ix3 (0 : Fin 1) ch n))
  rw [blk5_emb, layer_ix3]
  unfold GenP.outsAt0
  refine (stored_apply c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t)
    (iblk m c 3 t) (iblk m c 4 t) (0 : Fin 1) ch n).trans ?_
  have e0 : Xof (iblk m c 0 t) = fun ch d => V m c main_arg0 (ix3 (⟨t.val, point_lt t⟩ : Fin 8) ch d) :=
    funext fun ch => funext fun d => blk0_apply m c t ch d
  have e1 : Wof (iblk m c 1 t) = fun o ch => V m c main_arg1 (ix2 o ch) :=
    funext fun o => funext fun ch => blk1_apply m c t o ch
  have e2 : Bof (iblk m c 2 t) = fun o => V m c main_arg2 (ix1 o) := funext fun o => blk2_apply m c t o
  have e3 : Vof (iblk m c 3 t) = fun n => V m c main_arg3 (ix1 n) := funext fun n => blk3_apply m c t n
  have e4 : Vof (iblk m c 4 t) = fun n => V m c main_arg4 (ix1 n) := funext fun n => blk4_apply m c t n
  rw [e0, e1, e2, e3, e4]

/-- After the run the result array is the layer of the argument arrays. -/
theorem final (c : Dev nD) :
    (GenP.dats m 0 c).arrAt 5 cfg0.N
      = layer (m ((c : Thread nD τ).loc main_arg0)) (m ((c : Thread nD τ).loc main_arg1)) (m ((c : Thread nD τ).loc main_arg2))
          (m ((c : Thread nD τ).loc main_arg3)) (m ((c : Thread nD τ).loc main_arg4)) :=
  (GenP.dats m 0 c).arrAt_eq_of_cover 5 _ (fun t _ => flushed_eq m c t) cover5

/-- The kernel's run: it ends with the layer's array as its result and its arguments as they were. -/
theorem kernel_run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final m c),
      ((h c).1 0).trans (((GenP.dats m 0 c).arrAt_in 0 rfl _).trans ((GenP.A_eq m c 0).trans (V_main_arg0 m c))),
      ((h c).1 1).trans (((GenP.dats m 0 c).arrAt_in 1 rfl _).trans ((GenP.A_eq m c 1).trans (V_main_arg1 m c))),
      ((h c).1 2).trans (((GenP.dats m 0 c).arrAt_in 2 rfl _).trans ((GenP.A_eq m c 2).trans (V_main_arg2 m c))),
      ((h c).1 3).trans (((GenP.dats m 0 c).arrAt_in 3 rfl _).trans ((GenP.A_eq m c 3).trans (V_main_arg3 m c))),
      ((h c).1 4).trans (((GenP.dats m 0 c).arrAt_in 4 rfl _).trans ((GenP.A_eq m c 4).trans (V_main_arg4 m c)))⟩)
    (GenP.run_main m ρ)

end Cert.Hyper.Ker

end
-- ==== Proof.RefSide.lean ====
import proofs.«151105_j32813550141848_2_alg».proof.Proof.ReferenceRead
import proofs.«151105_j32813550141848_2_alg».proof.Proof.Spec
import Idealize.ShloMosaic.Lib.ValueIdx
import Idealize.ShloMosaic.Lib.ValueLayout
import Idealize.ShloMosaic.PureOps.Ideal.Laws

/-
  The reference program, read one entry at a time, is the layer of Spec in its second arrangement.

  Each stage of the program is read at an index written by its coordinates (batch b, nodes i j t s n, channels c o):
  the squared distance, the 0/1 adjacency decided on the root, the dense layer, the two averages over neighbours, the
  residual, then the mean and variance of a channel over the nodes, the normalised entry and the activation. A sum
  of the program becomes the sum of the specification term by term; nothing is reordered.
-/

noncomputable section
namespace Cert.Hyper.Ref
open Cert.ReferenceIdeal Cert.ReferenceIdeal.Read Idealize.ShloMosaic Idealize.ShloMosaic.ValueIdx

/-! ## Bits and words -/

/-- The comparison "less than", converted to a float, is the indicator of the inequality. -/
theorem uitofp_olt (x y : EReal) :
    FloatOps.uitofp (F := Ideal) .f32 (FloatOps.cmpf (F := Ideal) (φ := .f32) .olt x y) = ind (x < y) := by
  show (((Ideal.cmp .olt x y).toNat : ℝ) : EReal) = ind (x < y)
  unfold ind Ideal.cmp
  by_cases h : x < y
  · simp [h]
  · simp [h]

/-- A select on the comparison "equal to zero" is the `if` on the equation. -/
theorem select_oeq_zero (d a c : EReal) :
    Scalar.select (FloatOps.cmpf (F := Ideal) (φ := .f32) .oeq d 0) a c = if d = 0 then a else c := by
  show Scalar.select (Ideal.cmp .oeq d 0) a c = _
  unfold Scalar.select Ideal.cmp
  by_cases h : d = 0
  · simp [h]
  · simp [h]

/-- The reciprocal as the program spells it: zero where the divisor is zero, else the word of one over the divisor. -/
theorem recip_spelt (d : EReal) :
    Scalar.select (FloatOps.cmpf (F := Ideal) (φ := .f32) .oeq d (FloatOps.ofBits (F := Ideal) .f32 0x00000000#32))
      (FloatOps.ofBits (F := Ideal) .f32 0x00000000#32)
      (FloatOps.hostDivf (F := Ideal) (φ := .f32) (FloatOps.ofBits (F := Ideal) .f32 0x3F800000#32) d) = recip d := by
  rw [Ideal.ofBits_def, Ideal.ofBits_zero_f32, select_oeq_zero]
  rfl

/-! ## The stages at an index -/

section Stages

variable (x0 : (⟨S8x256x2048, .f32⟩ : BufTy).Contents (Elt Ideal)) (x1 : (⟨S256x256, .f32⟩ : BufTy).Contents (Elt Ideal))
    (x2 : (⟨S256, .f32⟩ : BufTy).Contents (Elt Ideal)) (x3 x4 : (⟨S2048, .f32⟩ : BufTy).Contents (Elt Ideal)) (b : Fin 8)

/-- Batch `b`'s feature matrix, the weights and the bias, as the specification takes them. -/
local notation "X" => (fun (c : Fin 256) (d : Fin 2048) => x0 (ix3 b c d))
local notation "W" => (fun (o c : Fin 256) => x1 (ix2 o c))
local notation "B₂" => (fun (o : Fin 256) => x2 (ix1 o))
local notation "G₃" => (fun (n : Fin 2048) => x3 (ix1 n))
local notation "B₄" => (fun (n : Fin 2048) => x4 (ix1 n))
local notation "Y" => (residT X W B₂)

/-- The node-major copy at node `d`, channel `c` is the input at channel `c`, node `d`. -/
theorem v0_at (d : Fin 2048) (c : Fin 256) : val_main_v0 (F := Ideal) x0 (ix3 b d c) = x0 (ix3 b c d) := by
  rw [val_main_v0_apply]
  exact congrArg x0 (funext fun a => Fin.ext (by match a with | ⟨0, _⟩ => rfl | ⟨1, _⟩ => rfl | ⟨2, _⟩ => rfl))

/-- The squared length of node `i`'s column. -/
theorem v2_at (i : Fin 2048) : val_main_v2 (F := Ideal) x0 (ix2 b i) = sqn X i := by
  rw [val_main_v2_apply, val_main_cst_apply, Ideal.ofBits_def, Ideal.ofBits_zero_f32, zero_add]
  unfold sqn
  refine Finset.sum_congr rfl fun k _ => ?_
  rw [show idx_main_v2 (ix2 b i) k = ix3 b i k from funext fun a => Fin.ext (by match a with | ⟨0, _⟩ => rfl | ⟨1, _⟩ => rfl | ⟨2, _⟩ => rfl),
    val_main_v1_apply, v0_at, Ideal.mulf_def]

/-- The squared distance of the columns of nodes `i` and `j`. -/
theorem v11_at (i j : Fin 2048) : val_main_v11 (F := Ideal) x0 (ix3 b i j) = dist2 X i j := by
  rw [val_main_v11_apply, val_main_v7_apply, val_main_v5_apply, val_main_v3_apply, val_main_v6_apply, val_main_v4_apply,
    val_main_v10_apply, val_main_v9_apply, val_main_cst_0_apply, val_main_v8_apply,
    show idx_main_v3 (idx_main_v5 (ix3 b i j)) = ix2 b i from funext fun a => Fin.ext (by match a with | ⟨0, _⟩ => rfl | ⟨1, _⟩ => rfl),
    show idx_main_v4 (idx_main_v6 (ix3 b i j)) = ix2 b j from funext fun a => Fin.ext (by match a with | ⟨0, _⟩ => rfl | ⟨1, _⟩ => rfl),
    v2_at, v2_at, Ideal.subf_def, Ideal.addf_def, Ideal.mulf_def, Ideal.ofBits_def]
  unfold dist2 gram
  refine congrArg (fun s => (sqn X i + sqn X j) - Ideal.ofBits .f32 0x40000000#32 * s) (Finset.sum_congr rfl fun k _ => ?_)
  rw [show lidx_main_v8 (ix3 b i j) k = ix3 b i k from funext fun a => Fin.ext (by match a with | ⟨0, _⟩ => rfl | ⟨1, _⟩ => rfl | ⟨2, _⟩ => rfl),
    show ridx_main_v8 (ix3 b i j) k = ix3 b j k from funext fun a => Fin.ext (by match a with | ⟨0, _⟩ => rfl | ⟨1, _⟩ => rfl | ⟨2, _⟩ => rfl),
    v0_at, v0_at]

/-- The adjacency of nodes `i` and `j`, decided on the root of the clamped squared distance. -/
theorem v17_at (i j : Fin 2048) : val_main_v17 (F := Ideal) x0 (ix3 b i j) = adjRoot X i j := by
  rw [val_main_v17_apply, val_main_v16_apply, val_main_v14_apply, val_main_v13_apply, v11_at, val_main_v12_apply,
    val_main_cst_1_apply, val_main_v15_apply, val_main_cst_2_apply, Ideal.hostUnary_sqrt_def, Ideal.maximumf_def,
    uitofp_olt]
  simp only [Ideal.ofBits_def, Ideal.ofBits_zero_f32]
  rfl

/-- The dense layer at node `d`, output channel `o`. -/
theorem v21_at (d : Fin 2048) (o : Fin 256) :
    val_main_v21 (F := Ideal) x0 x1 x2 (ix3 b d o) = dense X W B₂ d o := by
  rw [val_main_v21_apply, val_main_v20_apply, val_main_v19_apply, val_main_v18_apply, Ideal.addf_def,
    show idx_main_v19 (idx_main_v20 (ix3 b d o)) = ix1 o from funext fun a => Fin.ext (by match a with | ⟨0, _⟩ => rfl)]
  unfold dense
  refine congrArg (fun s => s + x2 (ix1 o)) (Finset.sum_congr rfl fun k _ => ?_)
  rw [show lidx_main_v18 (ix3 b d o) k = ix3 b d k from funext fun a => Fin.ext (by match a with | ⟨0, _⟩ => rfl | ⟨1, _⟩ => rfl | ⟨2, _⟩ => rfl),
    show ridx_main_v18 (ix3 b d o) k = ix2 o k from funext fun a => Fin.ext (by match a with | ⟨0, _⟩ => rfl | ⟨1, _⟩ => rfl),
    v0_at]

/-- The transposed adjacency matrix. -/
theorem v22_at (t s : Fin 2048) : val_main_v22 (F := Ideal) x0 (ix3 b t s) = adjRoot X s t := by
  rw [val_main_v22_apply, show idx_main_v22 (ix3 b t s) = ix3 b s t from funext fun a => Fin.ext (by match a with | ⟨0, _⟩ => rfl | ⟨1, _⟩ => rfl | ⟨2, _⟩ => rfl),
    v17_at]

/-- The transposed matrix times the dense layer. -/
theorem v23_at (t : Fin 2048) (o : Fin 256) :
    val_main_v23 (F := Ideal) x0 x1 x2 (ix3 b t o) = ∑ s : Fin 2048, adjRoot X s t * dense X W B₂ s o := by
  rw [val_main_v23_apply]
  refine Finset.sum_congr rfl fun k _ => ?_
  rw [show lidx_main_v23 (ix3 b t o) k = ix3 b t k from funext fun a => Fin.ext (by match a with | ⟨0, _⟩ => rfl | ⟨1, _⟩ => rfl | ⟨2, _⟩ => rfl),
    show ridx_main_v23 (ix3 b t o) k = ix3 b k o from funext fun a => Fin.ext (by match a with | ⟨0, _⟩ => rfl | ⟨1, _⟩ => rfl | ⟨2, _⟩ => rfl),
    v22_at, v21_at]

/-- The transposed matrix's row sums. -/
theorem v24_at (t : Fin 2048) : val_main_v24 (F := Ideal) x0 (ix2 b t) = ∑ s : Fin 2048, adjRoot X s t := by
  rw [val_main_v24_apply, val_main_cst_3_apply, Ideal.ofBits_def, Ideal.ofBits_zero_f32, zero_add]
  refine Finset.sum_congr rfl fun k _ => ?_
  rw [show idx_main_v24 (ix2 b t) k = ix3 b t k from funext fun a => Fin.ext (by match a with | ⟨0, _⟩ => rfl | ⟨1, _⟩ => rfl | ⟨2, _⟩ => rfl),
    v22_at]

/-- The first average's reciprocal. -/
theorem v30_at (t : Fin 2048) (z : Fin 1) :
    val_main_v30 (F := Ideal) x0 (ix3 b t z) = recip (∑ s : Fin 2048, adjRoot X s t) := by
  rw [val_main_v30_apply, val_main_v27_apply, val_main_v29_apply, val_main_call0_v1_apply, val_main_call0_v0_apply,
    val_main_cst_6_apply, val_main_v26_apply, val_main_cst_4_apply, val_main_v28_apply, val_main_cst_5_apply,
    val_main_v25_apply, show idx_main_v25 (ix3 b t z) = ix2 b t from funext fun a => Fin.ext (by match a with | ⟨0, _⟩ => rfl | ⟨1, _⟩ => rfl),
    v24_at]
  exact recip_spelt _

/-- The first average (nodes to edges). -/
theorem v32_at (t : Fin 2048) (o : Fin 256) :
    val_main_v32 (F := Ideal) x0 x1 x2 (ix3 b t o) = edgeT X W B₂ t o := by
  rw [val_main_v32_apply, val_main_v31_apply,
    show idx_main_v31 (ix3 b t o) = ix3 b t (0 : Fin 1) from funext fun a => Fin.ext (by match a with | ⟨0, _⟩ => rfl | ⟨1, _⟩ => rfl | ⟨2, _⟩ => rfl),
    v30_at, v23_at, Ideal.mulf_def]
  rfl

/-- The adjacency matrix times the first average. -/
theorem v33_at (t : Fin 2048) (o : Fin 256) :
    val_main_v33 (F := Ideal) x0 x1 x2 (ix3 b t o) = ∑ s : Fin 2048, adjRoot X t s * edgeT X W B₂ s o := by
  rw [val_main_v33_apply]
  refine Finset.sum_congr rfl fun k _ => ?_
  rw [show lidx_main_v33 (ix3 b t o) k = ix3 b t k from funext fun a => Fin.ext (by match a with | ⟨0, _⟩ => rfl | ⟨1, _⟩ => rfl | ⟨2, _⟩ => rfl),
    show ridx_main_v33 (ix3 b t o) k = ix3 b k o from funext fun a => Fin.ext (by match a with | ⟨0, _⟩ => rfl | ⟨1, _⟩ => rfl | ⟨2, _⟩ => rfl),
    v17_at, v32_at]

/-- The adjacency matrix's row sums. -/
theorem v34_at (t : Fin 2048) : val_main_v34 (F := Ideal) x0 (ix2 b t) = ∑ s : Fin 2048, adjRoot X t s := by
  rw [val_main_v34_apply, val_main_cst_7_apply, Ideal.ofBits_def, Ideal.ofBits_zero_f32, zero_add]
  refine Finset.sum_congr rfl fun k _ => ?_
  rw [show idx_main_v34 (ix2 b t) k = ix3 b t k from funext fun a => Fin.ext (by match a with | ⟨0, _⟩ => rfl | ⟨1, _⟩ => rfl | ⟨2, _⟩ => rfl),
    v17_at]

/-- The second average's reciprocal. -/
theorem v40_at (t : Fin 2048) (z : Fin 1) :
    val_main_v40 (F := Ideal) x0 (ix3 b t z) = recip (∑ s : Fin 2048, adjRoot X t s) := by
  rw [val_main_v40_apply, val_main_v37_apply, val_main_v39_apply, val_main_call1_v1_apply, val_main_call1_v0_apply,
    val_main_cst_10_apply, val_main_v36_apply, val_main_cst_8_apply, val_main_v38_apply, val_main_cst_9_apply,
    val_main_v35_apply, show idx_main_v35 (ix3 b t z) = ix2 b t from funext fun a => Fin.ext (by match a with | ⟨0, _⟩ => rfl | ⟨1, _⟩ => rfl),
    v34_at]
  exact recip_spelt _

/-- The second average (edges to nodes), node-major. -/
theorem v42_at (t : Fin 2048) (o : Fin 256) :
    val_main_v42 (F := Ideal) x0 x1 x2 (ix3 b t o) = nodeT X W B₂ t o := by
  rw [val_main_v42_apply, val_main_v41_apply,
    show idx_main_v41 (ix3 b t o) = ix3 b t (0 : Fin 1) from funext fun a => Fin.ext (by match a with | ⟨0, _⟩ => rfl | ⟨1, _⟩ => rfl | ⟨2, _⟩ => rfl),
    v40_at, v33_at, Ideal.mulf_def]
  rfl

/-- The residual, channel-major again. -/
theorem v44_at (c : Fin 256) (n : Fin 2048) :
    val_main_v44 (F := Ideal) x0 x1 x2 (ix3 b c n) = Y c n := by
  rw [val_main_v44_apply, show idx_main_v44 (ix3 b c n) = ix3 b n c from funext fun a => Fin.ext (by match a with | ⟨0, _⟩ => rfl | ⟨1, _⟩ => rfl | ⟨2, _⟩ => rfl),
    val_main_v43_apply, v42_at, v0_at, Ideal.addf_def]
  rfl

/-- A channel's sum over the nodes. -/
theorem v45_at (c : Fin 256) : val_main_v45 (F := Ideal) x0 x1 x2 (ix2 b c) = ∑ n : Fin 2048, Y c n := by
  rw [val_main_v45_apply, val_main_cst_11_apply, Ideal.ofBits_def, Ideal.ofBits_zero_f32, zero_add]
  refine Finset.sum_congr rfl fun k _ => ?_
  rw [show idx_main_v45 (ix2 b c) k = ix3 b c k from funext fun a => Fin.ext (by match a with | ⟨0, _⟩ => rfl | ⟨1, _⟩ => rfl | ⟨2, _⟩ => rfl),
    v44_at]

/-- A channel's mean. -/
theorem v48_at (c : Fin 256) (z : Fin 1) : val_main_v48 (F := Ideal) x0 x1 x2 (ix3 b c z) = mean Y c := by
  rw [val_main_v48_apply, val_main_v46_apply, show idx_main_v46 (ix3 b c z) = ix2 b c from funext fun a => Fin.ext (by match a with | ⟨0, _⟩ => rfl | ⟨1, _⟩ => rfl),
    v45_at, val_main_v47_apply, val_main_cst_12_apply, Ideal.hostDivf_def, Ideal.ofBits_def]
  rfl

/-- An entry less its channel's mean. -/
theorem v50_at (c : Fin 256) (n : Fin 2048) :
    val_main_v50 (F := Ideal) x0 x1 x2 (ix3 b c n) = Y c n - mean Y c := by
  rw [val_main_v50_apply, v44_at, val_main_v49_apply,
    show idx_main_v49 (ix3 b c n) = ix3 b c (0 : Fin 1) from funext fun a => Fin.ext (by match a with | ⟨0, _⟩ => rfl | ⟨1, _⟩ => rfl | ⟨2, _⟩ => rfl),
    v48_at, Ideal.subf_def]

/-- The sum of the squared deviations. -/
theorem v52_at (c : Fin 256) :
    val_main_v52 (F := Ideal) x0 x1 x2 (ix2 b c) = ∑ n : Fin 2048, (Y c n - mean Y c) * (Y c n - mean Y c) := by
  rw [val_main_v52_apply, val_main_cst_13_apply, Ideal.ofBits_def, Ideal.ofBits_zero_f32, zero_add]
  refine Finset.sum_congr rfl fun k _ => ?_
  rw [show idx_main_v52 (ix2 b c) k = ix3 b c k from funext fun a => Fin.ext (by match a with | ⟨0, _⟩ => rfl | ⟨1, _⟩ => rfl | ⟨2, _⟩ => rfl),
    val_main_v51_apply, v50_at, Ideal.mulf_def]

/-- A channel's variance. -/
theorem v55_at (c : Fin 256) (z : Fin 1) : val_main_v55 (F := Ideal) x0 x1 x2 (ix3 b c z) = var Y c := by
  rw [val_main_v55_apply, val_main_v53_apply, show idx_main_v53 (ix3 b c z) = ix2 b c from funext fun a => Fin.ext (by match a with | ⟨0, _⟩ => rfl | ⟨1, _⟩ => rfl),
    v52_at, val_main_v54_apply, val_main_cst_14_apply, Ideal.hostDivf_def, Ideal.ofBits_def]
  rfl

/-- The factor one over the root of the shifted variance. -/
theorem v60_at (c : Fin 256) (z : Fin 1) :
    val_main_v60 (F := Ideal) x0 x1 x2 (ix3 b c z) = Ideal.rsqrt (var Y c + Ideal.ofBits .f32 0x3727C5AC#32) := by
  rw [val_main_v60_apply, val_main_v59_apply, v55_at, val_main_v58_apply, val_main_cst_15_apply,
    Ideal.hostUnary_rsqrt_def, Ideal.addf_def, Ideal.ofBits_def]

/-- The normalised, scaled and shifted entry. -/
theorem v68_at (c : Fin 256) (n : Fin 2048) :
    val_main_v68 (F := Ideal) x0 x1 x2 x3 x4 (ix3 b c n) = normed Y G₃ B₄ c n := by
  rw [val_main_v68_apply, val_main_v65_apply, val_main_v62_apply, val_main_v57_apply, v44_at, val_main_v56_apply,
    show idx_main_v56 (ix3 b c n) = ix3 b c (0 : Fin 1) from funext fun a => Fin.ext (by match a with | ⟨0, _⟩ => rfl | ⟨1, _⟩ => rfl | ⟨2, _⟩ => rfl),
    v48_at, val_main_v61_apply,
    show idx_main_v61 (ix3 b c n) = ix3 b c (0 : Fin 1) from funext fun a => Fin.ext (by match a with | ⟨0, _⟩ => rfl | ⟨1, _⟩ => rfl | ⟨2, _⟩ => rfl),
    v60_at, val_main_v64_apply, val_main_v63_apply,
    show idx_main_v63 (idx_main_v64 (ix3 b c n)) = ix1 n from funext fun a => Fin.ext (by match a with | ⟨0, _⟩ => rfl),
    val_main_v67_apply, val_main_v66_apply,
    show idx_main_v66 (idx_main_v67 (ix3 b c n)) = ix1 n from funext fun a => Fin.ext (by match a with | ⟨0, _⟩ => rfl),
    Ideal.addf_def, Ideal.mulf_def, Ideal.mulf_def, Ideal.subf_def]
  rfl

/-- The output entry: the normalised entry times its logistic. -/
theorem v75_at (c : Fin 256) (n : Fin 2048) :
    val_main_v75 (F := Ideal) x0 x1 x2 x3 x4 (ix3 b c n) = out Y G₃ B₄ c n := by
  rw [val_main_v75_apply, val_main_v74_apply, val_main_v73_apply, val_main_cst_17_apply, val_main_v72_apply,
    val_main_v71_apply, val_main_cst_16_apply, val_main_v70_apply, val_main_v69_apply, v68_at, Ideal.mulf_def,
    Ideal.hostDivf_def, Ideal.addf_def, Ideal.hostUnary_exp_def, Ideal.hostNegf_def, Ideal.negf_def, Ideal.ofBits_def,
    word_one]
  rfl

end Stages

/-- The reference's result at batch b, channel c, node n is the layer's output entry of that batch, in the
    reference's arrangement. -/
theorem ref_entry (x0 : (⟨S8x256x2048, .f32⟩ : BufTy).Contents (Elt Ideal)) (x1 : (⟨S256x256, .f32⟩ : BufTy).Contents (Elt Ideal))
    (x2 : (⟨S256, .f32⟩ : BufTy).Contents (Elt Ideal)) (x3 x4 : (⟨S2048, .f32⟩ : BufTy).Contents (Elt Ideal))
    (b : Fin 8) (c : Fin 256) (n : Fin 2048) :
    val_main_v75 (F := Ideal) x0 x1 x2 x3 x4 (ix3 b c n)
      = Cert.Hyper.out (Cert.Hyper.residT (fun c d => x0 (ix3 b c d)) (fun o c => x1 (ix2 o c)) (fun o => x2 (ix1 o)))
          (fun n => x3 (ix1 n)) (fun n => x4 (ix1 n)) c n :=
  v75_at x0 x1 x2 x3 x4 b c n

end Cert.Hyper.Ref
end
-- ==== Proof.Whole.lean ====
/-
  The reference's result, as a whole array, is the layer of its arguments.

  The reference computes each entry in its own arrangement (the distance's root against 22, the averages along the
  adjacency matrix and its transpose); that arrangement is the same function as the kernel's (the specification's last
  theorem about the residual), so the reference's last stage is the layer's array.
-/
import proofs.«151105_j32813550141848_2_alg».proof.Proof.RefSide
import proofs.«151105_j32813550141848_2_alg».proof.Proof.Layer

noncomputable section

namespace Cert.Hyper

open Idealize.ShloMosaic Idealize.ShloMosaic.ValueIdx

open Cert.ReferenceIdeal Cert.ReferenceIdeal.Read in
/-- The reference's last stage, as a whole array, is the layer. -/
theorem ref_layer (x0 : (⟨S8x256x2048, .f32⟩ : BufTy).Contents (Elt Ideal)) (x1 : (⟨S256x256, .f32⟩ : BufTy).Contents (Elt Ideal))
    (x2 : (⟨S256, .f32⟩ : BufTy).Contents (Elt Ideal)) (x3 x4 : (⟨S2048, .f32⟩ : BufTy).Contents (Elt Ideal)) :
    val_main_v75 (F := Ideal) x0 x1 x2 x3 x4 = layer x0 x1 x2 x3 x4 := by
  funext i
  obtain ⟨b, c, n, rfl⟩ : ∃ (b : Fin 8) (c : Fin 256) (n : Fin 2048), i = ix3 b c n := ⟨i 0, i 1, i 2, eq_ix3 i⟩
  rw [Cert.Hyper.Ref.ref_entry, layer_ix3, residT_eq_resid]

end Cert.Hyper

end
-- ==== Proof.lean ====
/-
  A hypergraph-convolution layer over batches of node features, computed by a fused kernel and by a plain reference: the
  two compute the same array over the extended reals.

  For each of the 8 batches, with feature matrix `X` (256 channels by 2048 nodes): two nodes are adjacent when the squared
  distance of their feature columns is small; a dense layer of the node features is averaged over each node's neighbours,
  the averages are averaged over the neighbours again, the result is added to `X`, every channel is normalised over the
  nodes, scaled and shifted, and passed through `z ↦ z · logistic z`.

  The reference decides adjacency on the distance (the root of the squared distance clamped at zero) against 22 and takes
  the two averages along the adjacency matrix and its transpose. The kernel decides on the squared distance against
  484 = 22², builds the matrix in eight row blocks of 256 nodes inside a counted loop — each block stored to a scratch
  matrix, its column sums added to a running degree — and takes both averages through the scratch matrix along whichever
  axis is at hand. The two agree, entry by entry and with no assumption on the entries, because a root of a non-negative
  number is below 22 exactly when the number is below 484, because the adjacency matrix is symmetric (a commutative sum of a
  commutative product), and because a sum taken block by block from zero is the whole sum.

  The three runs terminate without a fault and leave their arguments as they were; the idealised kernel is the kernel's own
  text (nothing was rewritten); and the idealised kernel and the idealised reference end with the same result array,
  `Cert.Hyper.layer` of the five arguments.
-/
import proofs.«151105_j32813550141848_2_alg».proof.Defs
import proofs.«151105_j32813550141848_2_alg».proof.Proof.Gen.Kernel
import proofs.«151105_j32813550141848_2_alg».proof.Proof.Gen.KernelIdeal
import proofs.«151105_j32813550141848_2_alg».proof.Proof.Gen.ReferenceIdeal
import proofs.«151105_j32813550141848_2_alg».proof.Proof.Gen.Pre_finite_inputs
import proofs.«151105_j32813550141848_2_alg».proof.Proof.KernelFrame
import proofs.«151105_j32813550141848_2_alg».proof.Proof.KValue
import proofs.«151105_j32813550141848_2_alg».proof.Proof.Whole
import Idealize.ShloMosaic.Adequacy
import Idealize.ShloMosaic.Init

noncomputable section

namespace Cert.Proof

open Idealize.ShloMosaic Idealize.SL.Sem

/-- The kernel, word for word, runs and keeps its arguments. -/
theorem frame_kernel : Cert.frame_Kernel := fun m ρ _ => Cert.Kernel.GenP.frame m ρ

/-- So does its reading over the extended reals. -/
theorem frame_kernel_ideal : Cert.frame_KernelIdeal := fun m ρ _ => Cert.KernelIdeal.GenP.frame m ρ

/-- The reference is a sequence of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the arguments, both programs end with the layer's array of those arguments. -/
theorem algebraic : Cert.algebraic_KernelIdeal_ReferenceIdeal := by
  intro m ρ m' ρ' _ hagree
  refine ⟨_, Cert.Hyper.Ker.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, Cert.Hyper.ref_layer, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
